-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S100000x512 : Shape := ⟨2, ![100000, 512]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S1600 : Shape := ⟨1, ![1600]⟩
abbrev S64 : Shape := ⟨1, ![64]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S512x2 .f32) (main_arg5 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2 .f32 := Host.absf main_arg4
  let main_cst_6 : FVec F S_ .f32 := constant S_ .f32 0x7F800000#32
  let main_v20 : FVec F S512x2 .f32 := broadcastInDim S512x2 ![] bcast_S_S512x2 main_cst_6
  let main_v21 : IVec S512x2 1 := cmpf .olt main_v19 main_v20
  let main_c_7 : IVec S_ 1 := constantI S_ 1 1#1
  let main_v22 : IVec S_ 1 := (fun x v => Host.reduce IntOp.andi x v reducesTo_S512x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S200000x512 .f32) (main_arg1 : FVec F S100000x512 .f32) (main_arg2 : FVec F S1024x512 .f32) (main_arg3 : FVec F S512 .f32) (main_arg4 : FVec F S512x2 .f32) (main_arg5 : FVec F S2 .f32) (main_arg6 : IVec S1600 32) (main_arg7 : IVec S64 32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S200000x512 : Shape := ⟨2, ![200000, 512]⟩
abbrev S100000x512 : Shape := ⟨2, ![100000, 512]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S1600 : Shape := ⟨1, ![1600]⟩
abbrev S64 : Shape := ⟨1, ![64]⟩
abbrev S_ : Shape := ⟨0, ![]⟩
abbrev S1600x1 : Shape := ⟨2, ![1600, 1]⟩
abbrev S1600x512 : Shape := ⟨2, ![1600, 512]⟩
abbrev S64x1 : Shape := ⟨2, ![64, 1]⟩
abbrev S64x512 : Shape := ⟨2, ![64, 512]⟩
abbrev S512x512 : Shape := ⟨2, ![512, 512]⟩
abbrev S512x1 : Shape := ⟨2, ![512, 1]⟩
abbrev S1 : Shape := ⟨1, ![1]⟩
abbrev S1x1 : Shape := ⟨2, ![1, 1]⟩
abbrev S1600x64x1 : Shape := ⟨3, ![1600, 64, 1]⟩
abbrev S80x512 : Shape := ⟨2, ![80, 512]⟩
abbrev S80x64x1 : Shape := ⟨3, ![80, 64, 1]⟩
abbrev S80x1x512 : Shape := ⟨3, ![80, 1, 512]⟩
abbrev S1x64x512 : Shape := ⟨3, ![1, 64, 512]⟩
abbrev S80x64x512 : Shape := ⟨3, ![80, 64, 512]⟩
abbrev S1x1x512 : Shape := ⟨3, ![1, 1, 512]⟩
abbrev S5120x512 : Shape := ⟨2, ![5120, 512]⟩
abbrev S5120x1 : Shape := ⟨2, ![5120, 1]⟩
abbrev S1x1x1 : Shape := ⟨3, ![1, 1, 1]⟩
abbrev S1600x64 : Shape := ⟨2, ![1600, 64]⟩

abbrev nBuf : Space → Nat
  | .hbm => 44
  | .vmem => 9
  | .smem => 0
  | _ => 0

abbrev bufTy : (tb : Table) → Fin (tcTables nBuf tb) → BufTy
  | .hbm, ⟨0, _⟩ => ⟨S200000x512, .f32⟩
  | .hbm, ⟨1, _⟩ => ⟨S100000x512, .f32⟩
  | .hbm, ⟨2, _⟩ => ⟨S1024x512, .f32⟩
  | .hbm, ⟨3, _⟩ => ⟨S512, .f32⟩
  | .hbm, ⟨4, _⟩ => ⟨S512x2, .f32⟩
  | .hbm, ⟨5, _⟩ => ⟨S2, .f32⟩
  | .hbm, ⟨6, _⟩ => ⟨S1600, .i32⟩
  | .hbm, ⟨7, _⟩ => ⟨S64, .i32⟩
  | .hbm, ⟨8, _⟩ => ⟨S_, .i32⟩
  | .hbm, ⟨9, _⟩ => ⟨S1600, .i32⟩
  | .hbm, ⟨10, _⟩ => ⟨S1600, .i1⟩
  | .hbm, ⟨11, _⟩ => ⟨S_, .i32⟩
  | .hbm, ⟨12, _⟩ => ⟨S1600, .i32⟩
  | .hbm, ⟨13, _⟩ => ⟨S1600, .i32⟩
  | .hbm, ⟨14, _⟩ => ⟨S1600, .i32⟩
  | .hbm, ⟨15, _⟩ => ⟨S1600x1, .i32⟩
  | .hbm, ⟨16, _⟩ => ⟨S1600x512, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x512, .f32⟩
  | .hbm, ⟨26, _⟩ => ⟨S512x512, .f32⟩
  | .hbm, ⟨27, _⟩ => ⟨S512x512, .f32⟩
  | .hbm, ⟨28, _⟩ => ⟨S64x512, .bf16⟩
  | .hbm, ⟨29, _⟩ => ⟨S512x512, .bf16⟩
  | .hbm, ⟨30, _⟩ => ⟨S64x512, .f32⟩
  | .hbm, ⟨31, _⟩ => ⟨S512x1, .f32⟩
  | .hbm, ⟨32, _⟩ => ⟨S512, .f32⟩
  | .hbm, ⟨33, _⟩ => ⟨S512x1, .f32⟩
  | .hbm, ⟨34, _⟩ => ⟨S512, .f32⟩
  | .hbm, ⟨35, _⟩ => ⟨S512, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S_, .f32⟩
  | .hbm, ⟨41, _⟩ => ⟨S1x1, .f32⟩
  | .hbm, ⟨42, _⟩ => ⟨S1600x64x1, .f32⟩
  | .hbm, ⟨43, _⟩ => ⟨S1600x64, .f32⟩
  | .local _ .vmem, ⟨0, _⟩ => ⟨S80x512, .f32⟩
  | .local _ .vmem, ⟨1, _⟩ => ⟨S80x512, .f32⟩
  | .local _ .vmem, ⟨2, _⟩ => ⟨S64x512, .f32⟩
  | .local _ .vmem, ⟨3, _⟩ => ⟨S512x512, .f32⟩
  | .local _ .vmem, ⟨4, _⟩ => ⟨S512, .f32⟩
  | .local _ .vmem, ⟨5, _⟩ => ⟨S512, .f32⟩
  | .local _ .vmem, ⟨6, _⟩ => ⟨S1x1, .f32⟩
  | .local _ .vmem, ⟨7, _⟩ => ⟨S80x64x1, .f32⟩
  | .local _ .vmem, ⟨8, _⟩ => ⟨S80x64x1, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S80x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S80x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600 : S_.BroadcastsInDim S1600 (![] : Fin 0 → Fin S1600.rank)
  bcast_S1600_S1600x1_0 : S1600.BroadcastsInDim S1600x1 (![0] : Fin 1 → Fin S1600x1.rank)
  bcast_S_S64 : S_.BroadcastsInDim S64 (![] : Fin 0 → Fin S64.rank)
  bcast_S64_S64x1_0 : S64.BroadcastsInDim S64x1 (![0] : Fin 1 → Fin S64x1.rank)
  slices_S1024x512_S512x512_0_0 : S1024x512.Slices ![0, 0] S512x512
  slices_S1024x512_S512x512_512_0 : S1024x512.Slices ![512, 0] S512x512
  bitsLt_bf16_f32 : FTy.bits .bf16 < FTy.bits .f32
  slices_S512x2_S512x1_0_1 : S512x2.Slices ![0, 1] S512x1
  shapeCasts_S512x1_S512 : S512x1.ShapeCasts S512
  slices_S512x2_S512x1_0_0 : S512x2.Slices ![0, 0] S512x1
  slices_S2_S1_1 : S2.Slices ![1] S1
  shapeCasts_S1_S_ : S1.ShapeCasts S_
  slices_S2_S1_0 : S2.Slices ![0] S1
  shapeCasts_S_S1x1 : S_.ShapeCasts S1x1
  inb_S80x512_S80x512_0_0 : ∀ a, (![0, 0] : Fin 2 → Nat) a + S80x512.size a ≤ S80x512.size a
  h_S80x512 : 0 < S80x512.numel
  shapeCasts_S80x512_S80x512 : S80x512.ShapeCasts S80x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S80x512_S80x1x512 : S80x512.ShapeCasts S80x1x512
  shapeCasts_S64x512_S1x64x512 : S64x512.ShapeCasts S1x64x512
  broadcasts_S80x1x512_S80x64x512 : S80x1x512.Broadcasts S80x64x512
  broadcasts_S1x64x512_S80x64x512 : S1x64x512.Broadcasts S80x64x512
  shapeCasts_S512_S1x1x512 : S512.ShapeCasts S1x1x512
  broadcasts_S1x1x512_S80x64x512 : S1x1x512.Broadcasts S80x64x512
  shapeCasts_S512_S512 : S512.ShapeCasts S512
  shapeCasts_S512_S512x1 : S512.ShapeCasts S512x1
  shapeCasts_S80x64x512_S5120x512 : S80x64x512.ShapeCasts S5120x512
  shapeCasts_S5120x1_S80x64x1 : S5120x1.ShapeCasts S80x64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  broadcasts_S1x1x1_S80x64x1 : S1x1x1.Broadcasts S80x64x1
  inb_S80x64x1_S80x64x1_0_0_0 : ∀ a, (![0, 0, 0] : Fin 3 → Nat) a + S80x64x1.size a ≤ S80x64x1.size a
  h_S80x64x1 : 0 < S80x64x1.numel
  shapeCasts_S1600x64x1_S1600x64 : S1600x64x1.ShapeCasts S1600x64
  gather_S200000x512_S1600x1_S1600x512_1_0_n_n_0_1_1512_wf : GatherDims.WF S200000x512 S1600x1 S1600x512 [1] [0] [] [0] [] 1 ![1, 512]
  gather_S100000x512_S64x1_S64x512_1_0_n_n_0_1_1512_wf : GatherDims.WF S100000x512 S64x1 S64x512 [1] [0] [] [0] [] 1 ![1, 512]
  dot_S64x512_S512x512_S64x512_1_0_0_1_n_n_wf : DotDims.WF S64x512 S512x512 S64x512 [1] [0] [0] [1] [] []
  dot_S80x512_S512x512_S80x512_1_0_0_1_n_n_wf : DotDims.WF S80x512 S512x512 S80x512 [1] [0] [0] [1] [] []
  dot_S5120x512_S512x1_S5120x1_1_0_0_1_n_n_wf : DotDims.WF S5120x512 S512x1 S5120x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x512.size a ≤ S1600x512.size a
  hwx0_0 : ∀ i : grid0.Coords, EltTy.bits .f32 = 32 ∨ (Rect.block (s := S1600x512) S80x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x64x1.size a ≤ S1600x64x1.size a
  hwx0_6 : ∀ i : grid0.Coords, EltTy.bits .f32 = 32 ∨ (Rect.block (s := S1600x64x1) S80x64x1.size (cc0_transform_6 i) (hinb0_6 i)).WholeWords (EltTy.packing .f32)

variable [Facts₀]

def gather_S200000x512_S1600x1_S1600x512_1_0_n_n_0_1_1512 : GatherDims S200000x512 S1600x1 S1600x512 where
  offsetDims := [1]
  collapsedSliceDims := [0]
  operandBatchingDims := []
  startIndicesBatchingDims := []
  startIndexMap := [0]
  indexVectorDim := 1
  sliceSizes := ![1, 512]
  wf := gather_S200000x512_S1600x1_S1600x512_1_0_n_n_0_1_1512_wf
def gather_S100000x512_S64x1_S64x512_1_0_n_n_0_1_1512 : GatherDims S100000x512 S64x1 S64x512 where
  offsetDims := [1]
  collapsedSliceDims := [0]
  operandBatchingDims := []
  startIndicesBatchingDims := []
  startIndexMap := [0]
  indexVectorDim := 1
  sliceSizes := ![1, 512]
  wf := gather_S100000x512_S64x1_S64x512_1_0_n_n_0_1_1512_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S80x512_S512x512_S80x512_1_0_0_1_n_n : DotDims S80x512 S512x512 S80x512 where
  lhsContracting := [1]
  rhsContracting := [0]
  lhsNonContracting := [0]
  rhsNonContracting := [1]
  lhsBatch := []
  rhsBatch := []
  wf := dot_S80x512_S512x512_S80x512_1_0_0_1_n_n_wf
def dot_S5120x512_S512x1_S5120x1_1_0_0_1_n_n : DotDims S5120x512 S512x1 S5120x1 where
  lhsContracting := [1]
  rhsContracting := [0]
  lhsNonContracting := [0]
  rhsNonContracting := [1]
  lhsBatch := []
  rhsBatch := []
  wf := dot_S5120x512_S512x1_S5120x1_1_0_0_1_n_n_wf

abbrev win0_0 : Pipeline.Window sig grid0 :=
  Pipeline.Window.ofSpec (Memref.whole main_v6) S80x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S80x64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x512 : Shape := ⟨2, ![200000, 512]⟩
abbrev S100000x512 : Shape := ⟨2, ![100000, 512]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S1600 : Shape := ⟨1, ![1600]⟩
abbrev S64 : Shape := ⟨1, ![64]⟩
abbrev S_ : Shape := ⟨0, ![]⟩
abbrev S1600x1 : Shape := ⟨2, ![1600, 1]⟩
abbrev S1600x512 : Shape := ⟨2, ![1600, 512]⟩
abbrev S64x1 : Shape := ⟨2, ![64, 1]⟩
abbrev S64x512 : Shape := ⟨2, ![64, 512]⟩
abbrev S1600x1x512 : Shape := ⟨3, ![1600, 1, 512]⟩
abbrev S1600x64x512 : Shape := ⟨3, ![1600, 64, 512]⟩
abbrev S1x64x512 : Shape := ⟨3, ![1, 64, 512]⟩
abbrev S1600x64x1024 : Shape := ⟨3, ![1600, 64, 1024]⟩
abbrev S1x1x512 : Shape := ⟨3, ![1, 1, 512]⟩
abbrev S1600x64x2 : Shape := ⟨3, ![1600, 64, 2]⟩
abbrev S1x1x2 : Shape := ⟨3, ![1, 1, 2]⟩
abbrev S1600x64 : Shape := ⟨2, ![1600, 64]⟩
abbrev S1600x64x1 : Shape := ⟨3, ![1600, 64, 1]⟩

abbrev nBuf : Space → Nat
  | .hbm => 58
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S100000x512, .f32⟩
  | .hbm, ⟨2, _⟩ => ⟨S1024x512, .f32⟩
  | .hbm, ⟨3, _⟩ => ⟨S512, .f32⟩
  | .hbm, ⟨4, _⟩ => ⟨S512x2, .f32⟩
  | .hbm, ⟨5, _⟩ => ⟨S2, .f32⟩
  | .hbm, ⟨6, _⟩ => ⟨S1600, .i32⟩
  | .hbm, ⟨7, _⟩ => ⟨S64, .i32⟩
  | .hbm, ⟨8, _⟩ => ⟨S_, .i32⟩
  | .hbm, ⟨9, _⟩ => ⟨S1600, .i32⟩
  | .hbm, ⟨10, _⟩ => ⟨S1600, .i1⟩
  | .hbm, ⟨11, _⟩ => ⟨S_, .i32⟩
  | .hbm, ⟨12, _⟩ => ⟨S1600, .i32⟩
  | .hbm, ⟨13, _⟩ => ⟨S1600, .i32⟩
  | .hbm, ⟨14, _⟩ => ⟨S1600, .i32⟩
  | .hbm, ⟨15, _⟩ => ⟨S1600x1, .i32⟩
  | .hbm, ⟨16, _⟩ => ⟨S1600x512, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x512, .f32⟩
  | .hbm, ⟨26, _⟩ => ⟨S1600x1x512, .f32⟩
  | .hbm, ⟨27, _⟩ => ⟨S1600x64x512, .f32⟩
  | .hbm, ⟨28, _⟩ => ⟨S1x64x512, .f32⟩
  | .hbm, ⟨29, _⟩ => ⟨S1600x64x512, .f32⟩
  | .hbm, ⟨30, _⟩ => ⟨S1600x64x1024, .f32⟩
  | .hbm, ⟨31, _⟩ => ⟨S1600x64x512, .f32⟩
  | .hbm, ⟨32, _⟩ => ⟨S1x1x512, .f32⟩
  | .hbm, ⟨33, _⟩ => ⟨S1600x64x512, .f32⟩
  | .hbm, ⟨34, _⟩ => ⟨S1600x64x512, .f32⟩
  | .hbm, ⟨35, _⟩ => ⟨S_, .f32⟩
  | .hbm, ⟨36, _⟩ => ⟨S1600x64x512, .f32⟩
  | .hbm, ⟨37, _⟩ => ⟨S1600x64x512, .f32⟩
  | .hbm, ⟨38, _⟩ => ⟨S1600x64x2, .f32⟩
  | .hbm, ⟨39, _⟩ => ⟨S1x1x2, .f32⟩
  | .hbm, ⟨40, _⟩ => ⟨S1600x64x2, .f32⟩
  | .hbm, ⟨41, _⟩ => ⟨S1600x64x2, .f32⟩
  | .hbm, ⟨42, _⟩ => ⟨S_, .f32⟩
  | .hbm, ⟨43, _⟩ => ⟨S1600x64, .f32⟩
  | .hbm, ⟨44, _⟩ => ⟨S_, .f32⟩
  | .hbm, ⟨45, _⟩ => ⟨S1600x64, .f32⟩
  | .hbm, ⟨46, _⟩ => ⟨S1600x64, .f32⟩
  | .hbm, ⟨47, _⟩ => ⟨S1600x64x1, .f32⟩
  | .hbm, ⟨48, _⟩ => ⟨S1600x64x2, .f32⟩
  | .hbm, ⟨49, _⟩ => ⟨S1600x64x2, .f32⟩
  | .hbm, ⟨50, _⟩ => ⟨S1600x64x2, .f32⟩
  | .hbm, ⟨51, _⟩ => ⟨S_, .f32⟩
  | .hbm, ⟨52, _⟩ => ⟨S1600x64, .f32⟩
  | .hbm, ⟨53, _⟩ => ⟨S1600x64x1, .f32⟩
  | .hbm, ⟨54, _⟩ => ⟨S1600x64x2, .f32⟩
  | .hbm, ⟨55, _⟩ => ⟨S1600x64x2, .f32⟩
  | .hbm, ⟨56, _⟩ => ⟨S1600x64x1, .f32⟩
  | .hbm, ⟨57, _⟩ => ⟨S1600x64, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S1600 : S_.BroadcastsInDim S1600 (![] : Fin 0 → Fin S1600.rank)
  bcast_S1600_S1600x1_0 : S1600.BroadcastsInDim S1600x1 (![0] : Fin 1 → Fin S1600x1.rank)
  bcast_S_S64 : S_.BroadcastsInDim S64 (![] : Fin 0 → Fin S64.rank)
  bcast_S64_S64x1_0 : S64.BroadcastsInDim S64x1 (![0] : Fin 1 → Fin S64x1.rank)
  bcast_S1600x512_S1600x1x512_0_2 : S1600x512.BroadcastsInDim S1600x1x512 (![0, 2] : Fin 2 → Fin S1600x1x512.rank)
  bcast_S1600x1x512_S1600x64x512_0_1_2 : S1600x1x512.BroadcastsInDim S1600x64x512 (![0, 1, 2] : Fin 3 → Fin S1600x64x512.rank)
  bcast_S64x512_S1x64x512_1_2 : S64x512.BroadcastsInDim S1x64x512 (![1, 2] : Fin 2 → Fin S1x64x512.rank)
  bcast_S1x64x512_S1600x64x512_0_1_2 : S1x64x512.BroadcastsInDim S1600x64x512 (![0, 1, 2] : Fin 3 → Fin S1600x64x512.rank)
  concatenates_S1600x64x512_S1600x64x512_S1600x64x1024_d2 : Shape.Concatenates [S1600x64x512, S1600x64x512] S1600x64x1024 2
  bcast_S512_S1x1x512_2 : S512.BroadcastsInDim S1x1x512 (![2] : Fin 1 → Fin S1x1x512.rank)
  bcast_S1x1x512_S1600x64x512_0_1_2 : S1x1x512.BroadcastsInDim S1600x64x512 (![0, 1, 2] : Fin 3 → Fin S1600x64x512.rank)
  bcast_S_S1600x64x512 : S_.BroadcastsInDim S1600x64x512 (![] : Fin 0 → Fin S1600x64x512.rank)
  bcast_S2_S1x1x2_2 : S2.BroadcastsInDim S1x1x2 (![2] : Fin 1 → Fin S1x1x2.rank)
  bcast_S1x1x2_S1600x64x2_0_1_2 : S1x1x2.BroadcastsInDim S1600x64x2 (![0, 1, 2] : Fin 3 → Fin S1600x64x2.rank)
  reducesTo_S1600x64x2_S1600x64_d2 : S1600x64x2.ReducesTo [2] S1600x64
  h_S_ : 0 < S_.numel
  bcast_S_S1600x64 : S_.BroadcastsInDim S1600x64 (![] : Fin 0 → Fin S1600x64.rank)
  bcast_S1600x64_S1600x64x1_0_1 : S1600x64.BroadcastsInDim S1600x64x1 (![0, 1] : Fin 2 → Fin S1600x64x1.rank)
  bcast_S1600x64x1_S1600x64x2_0_1_2 : S1600x64x1.BroadcastsInDim S1600x64x2 (![0, 1, 2] : Fin 3 → Fin S1600x64x2.rank)
  slices_S1600x64x2_S1600x64x1_0_0_1 : S1600x64x2.Slices ![0, 0, 1] S1600x64x1
  shapeCasts_S1600x64x1_S1600x64 : S1600x64x1.ShapeCasts S1600x64
  gather_S200000x512_S1600x1_S1600x512_1_0_n_n_0_1_1512_wf : GatherDims.WF S200000x512 S1600x1 S1600x512 [1] [0] [] [0] [] 1 ![1, 512]
  gather_S100000x512_S64x1_S64x512_1_0_n_n_0_1_1512_wf : GatherDims.WF S100000x512 S64x1 S64x512 [1] [0] [] [0] [] 1 ![1, 512]
  dot_S1600x64x1024_S1024x512_S1600x64x512_2_0_01_1_n_n_wf : DotDims.WF S1600x64x1024 S1024x512 S1600x64x512 [2] [0] [0, 1] [1] [] []
  dot_S1600x64x512_S512x2_S1600x64x2_2_0_01_1_n_n_wf : DotDims.WF S1600x64x512 S512x2 S1600x64x2 [2] [0] [0, 1] [1] [] []

variable [Facts₀]

def gather_S200000x512_S1600x1_S1600x512_1_0_n_n_0_1_1512 : GatherDims S200000x512 S1600x1 S1600x512 where
  offsetDims := [1]
  collapsedSliceDims := [0]
  operandBatchingDims := []
  startIndicesBatchingDims := []
  startIndexMap := [0]
  indexVectorDim := 1
  sliceSizes := ![1, 512]
  wf := gather_S200000x512_S1600x1_S1600x512_1_0_n_n_0_1_1512_wf
def gather_S100000x512_S64x1_S64x512_1_0_n_n_0_1_1512 : GatherDims S100000x512 S64x1 S64x512 where
  offsetDims := [1]
  collapsedSliceDims := [0]
  operandBatchingDims := []
  startIndicesBatchingDims := []
  startIndexMap := [0]
  indexVectorDim := 1
  sliceSizes := ![1, 512]
  wf := gather_S100000x512_S64x1_S64x512_1_0_n_n_0_1_1512_wf
def dot_S1600x64x1024_S1024x512_S1600x64x512_2_0_01_1_n_n : DotDims S1600x64x1024 S1024x512 S1600x64x512 where
  lhsContracting := [2]
  rhsContracting := [0]
  lhsNonContracting := [0, 1]
  rhsNonContracting := [1]
  lhsBatch := []
  rhsBatch := []
  wf := dot_S1600x64x1024_S1024x512_S1600x64x512_2_0_01_1_n_n_wf
def dot_S1600x64x512_S512x2_S1600x64x2_2_0_01_1_n_n : DotDims S1600x64x512 S512x2 S1600x64x2 where
  lhsContracting := [2]
  rhsContracting := [0]
  lhsNonContracting := [0, 1]
  rhsNonContracting := [1]
  lhsBatch := []
  rhsBatch := []
  wf := dot_S1600x64x512_S512x2_S1600x64x2_2_0_01_1_n_n_wf

class Facts : Prop extends Facts₀ where

variable [Facts]
-- ==== Proof.KLayout.lean ====
/-
  The layout operations of the pair-score body, read at an index given by coordinates.

  The body forms the hidden tensor of a tile of 80 left samples against all 64 right samples as an array [80, 64, 512],
  flattens its two leading axes to 5120 rows for a product with a column, and unflattens the 5120 results to
  [80, 64, 1]: the pair (p, q) sits at row 64 p + q. The three summands of the hidden tensor are broadcasts: of the
  left term [80, 512] along the middle axis, of the right term [64, 512] along the leading axis, of the bias [512] along
  both. Each lemma says which operand entry one entry of the result is.
-/
import Idealize.ShloMosaic.Lib.Pipeline.Value
import Idealize.ShloMosaic.Lib.ValueIdx

namespace Cert.PairLayout

open Idealize.ShloMosaic Idealize.ShloMosaic.ValueIdx

variable {α : Type}

/-- The row of the pair (p, q) among the 5120 flattened rows: 64 p + q. -/
abbrev flat (p : Fin 80) (q : Fin 64) : Fin 5120 := ⟨p.val * 64 + q.val, by omega⟩

/-- Unflattening a column of 5120 entries to [80, 64, 1]: the entry of the pair (p, q) is row 64 p + q. -/
theorem unflatten_col (v : (⟨2, ![5120, 1]⟩ : Shape).Idx → α) (h : (⟨2, ![5120, 1]⟩ : Shape).ShapeCasts ⟨3, ![80, 64, 1]⟩)
    (p : Fin 80) (q : Fin 64) :
    shapeCast ⟨3, ![80, 64, 1]⟩ v h (ix3 p q (0 : Fin 1)) = v (ix2 (flat p q) (0 : Fin 1)) :=
  shapeCast_apply v h _ _ (by
    rw [Shape.rowMajor_val_two, Shape.rowMajor_val_three]
    show (p.val * 64 + q.val) * 1 + 0 = (p.val * 64 + q.val) * 1 + 0
    rfl)

/-- Flattening [80, 64, 512] to 5120 rows of 512: row 64 p + q is the row of the pair (p, q). -/
theorem flatten_rows (v : (⟨3, ![80, 64, 512]⟩ : Shape).Idx → α) (h : (⟨3, ![80, 64, 512]⟩ : Shape).ShapeCasts ⟨2, ![5120, 512]⟩)
    (p : Fin 80) (q : Fin 64) (k : Fin 512) :
    shapeCast ⟨2, ![5120, 512]⟩ v h (ix2 (flat p q) k) = v (ix3 p q k) :=
  shapeCast_apply v h _ _ (by
    rw [Shape.rowMajor_val_two, Shape.rowMajor_val_three]
    show (p.val * 64 + q.val) * 512 + k.val = (p.val * 64 + q.val) * 512 + k.val
    rfl)

/-- The left term [80, 512], given a unit middle axis and broadcast along it: entry (p, q, k) is entry (p, k). -/
theorem spread_left (v : (⟨2, ![80, 512]⟩ : Shape).Idx → α) (h : (⟨2, ![80, 512]⟩ : Shape).ShapeCasts ⟨3, ![80, 1, 512]⟩)
    (hb : (⟨3, ![80, 1, 512]⟩ : Shape).Broadcasts ⟨3, ![80, 64, 512]⟩) (p : Fin 80) (q : Fin 64) (k : Fin 512) :
    broadcastTo ⟨3, ![80, 64, 512]⟩ (shapeCast ⟨3, ![80, 1, 512]⟩ v h) hb (ix3 p q k) = v (ix2 p k) :=
  (broadcastTo_apply _ hb (ix3 p q k) (ix3 p (0 : Fin 1) k) (fun a => by
    match a with
    | ⟨0, _⟩ => rfl
    | ⟨1, _⟩ => rfl
    | ⟨2, _⟩ => rfl)).trans
  (shapeCast_apply v h _ _ (by
    rw [Shape.rowMajor_val_two, Shape.rowMajor_val_three]
    show p.val * 512 + k.val = (p.val * 1 + 0) * 512 + k.val
    omega))

/-- The right term [64, 512], given a unit leading axis and broadcast along it: entry (p, q, k) is entry (q, k). -/
theorem spread_right (v : (⟨2, ![64, 512]⟩ : Shape).Idx → α) (h : (⟨2, ![64, 512]⟩ : Shape).ShapeCasts ⟨3, ![1, 64, 512]⟩)
    (hb : (⟨3, ![1, 64, 512]⟩ : Shape).Broadcasts ⟨3, ![80, 64, 512]⟩) (p : Fin 80) (q : Fin 64) (k : Fin 512) :
    broadcastTo ⟨3, ![80, 64, 512]⟩ (shapeCast ⟨3, ![1, 64, 512]⟩ v h) hb (ix3 p q k) = v (ix2 q k) :=
  (broadcastTo_apply _ hb (ix3 p q k) (ix3 (0 : Fin 1) q k) (fun a => by
    match a with
    | ⟨0, _⟩ => rfl
    | ⟨1, _⟩ => rfl
    | ⟨2, _⟩ => rfl)).trans
  (shapeCast_apply v h _ _ (by
    rw [Shape.rowMajor_val_two, Shape.rowMajor_val_three]
    show q.val * 512 + k.val = (0 * 64 + q.val) * 512 + k.val
    omega))

/-- The bias [512], given two unit leading axes and broadcast along both: entry (p, q, k) is entry k. -/
theorem spread_bias (v : (⟨1, ![512]⟩ : Shape).Idx → α) (h : (⟨1, ![512]⟩ : Shape).ShapeCasts ⟨3, ![1, 1, 512]⟩)
    (hb : (⟨3, ![1, 1, 512]⟩ : Shape).Broadcasts ⟨3, ![80, 64, 512]⟩) (p : Fin 80) (q : Fin 64) (k : Fin 512) :
    broadcastTo ⟨3, ![80, 64, 512]⟩ (shapeCast ⟨3, ![1, 1, 512]⟩ v h) hb (ix3 p q k) = v (ix1 k) :=
  (broadcastTo_apply _ hb (ix3 p q k) (ix3 (0 : Fin 1) (0 : Fin 1) k) (fun a => by
    match a with
    | ⟨0, _⟩ => rfl
    | ⟨1, _⟩ => rfl
    | ⟨2, _⟩ => rfl)).trans
  (shapeCast_apply v h _ _ (by
    rw [Shape.rowMajor_val_one, Shape.rowMajor_val_three]
    show k.val = (0 * 1 + 0) * 512 + k.val
    omega))

/-- The weight-difference vector [512] as a column [512, 1]: entry (k, 0) is entry k. -/
theorem as_column (v : (⟨1, ![512]⟩ : Shape).Idx → α) (h : (⟨1, ![512]⟩ : Shape).ShapeCasts ⟨2, ![512, 1]⟩) (k : Fin 512) :
    shapeCast ⟨2, ![512, 1]⟩ v h (ix2 k (0 : Fin 1)) = v (ix1 k) :=
  shapeCast_apply v h _ _ (by
    rw [Shape.rowMajor_val_one, Shape.rowMajor_val_two]
    show k.val = k.val * 1 + 0
    omega)

/-- The bias difference [1, 1], given a third unit axis and broadcast to [80, 64, 1]: every entry is its one entry. -/
theorem spread_scalar (v : (⟨2, ![1, 1]⟩ : Shape).Idx → α) (h : (⟨2, ![1, 1]⟩ : Shape).ShapeCasts ⟨3, ![1, 1, 1]⟩)
    (hb : (⟨3, ![1, 1, 1]⟩ : Shape).Broadcasts ⟨3, ![80, 64, 1]⟩) (p : Fin 80) (q : Fin 64) :
    broadcastTo ⟨3, ![80, 64, 1]⟩ (shapeCast ⟨3, ![1, 1, 1]⟩ v h) hb (ix3 p q (0 : Fin 1)) = v (ix2 (0 : Fin 1) (0 : Fin 1)) :=
  (broadcastTo_apply _ hb (ix3 p q (0 : Fin 1)) (ix3 (0 : Fin 1) (0 : Fin 1) (0 : Fin 1)) (fun a => by
    match a with
    | ⟨0, _⟩ => rfl
    | ⟨1, _⟩ => rfl
    | ⟨2, _⟩ => rfl)).trans
  (shapeCast_apply v h _ _ (by
    rw [Shape.rowMajor_val_two, Shape.rowMajor_val_three]
    show 0 * 1 + 0 = (0 * 1 + 0) * 1 + 0
    rfl))

end Cert.PairLayout
-- ==== Proof.KPay.lean ====
/-
  The body of the pair-score kernel at one pair.

  On a tile of 80 left samples the body computes, for the left sample p of the tile and the right sample q, from the
  tile's left feature rows `xl` [80, 512], the upper half `wu` [512, 512] of the first layer's weights, the right
  term `br` [64, 512] (the right rows already multiplied by the lower half), the bias `b1` [512], the weight
  difference `wd` [512] and the bias difference `bd` [1, 1]:
      1 / (1 + exp (0 − (∑_h max ((∑_f xl p f · wu f h + br q h) + b1 h) 0 · wd h + bd))).
  The two products are sums over 512 terms (into a zero accumulator), the changes of float format are the identity on
  extended reals, and the reshapes and broadcasts are those of `PairLayout`.
-/
import proofs.«114574_j23450521436163_2_alg».proof.Proof.Gen.KernelIdeal.Skeleton
import proofs.«114574_j23450521436163_2_alg».proof.Proof.KLayout
import Idealize.ShloMosaic.PureOps.Ideal.Laws
import Idealize.ShloMosaic.Lib.IdealHost

noncomputable section

namespace Cert.KernelIdeal.PairValue

open Idealize.ShloMosaic Idealize.ShloMosaic.ValueIdx Cert.KernelIdeal Cert.KernelIdeal.Gen Cert.PairLayout

theorem tile_times_upper_l0 (i : S80x512.Idx) (q : dot_S80x512_S512x512_S80x512_1_0_0_1_n_n.contr.Idx) : (dot_S80x512_S512x512_S80x512_1_0_0_1_n_n.lhsIdx i q 0).val = (i 0).val := by
  unfold DotDims.lhsIdx
  rw [dif_neg (show ¬(0 : Fin S80x512.rank) ∈ dot_S80x512_S512x512_S80x512_1_0_0_1_n_n.lhsBatch by decide), dif_pos (show (0 : Fin S80x512.rank) ∈ dot_S80x512_S512x512_S80x512_1_0_0_1_n_n.lhsNonContracting by decide)]
  rfl
theorem tile_times_upper_r1 (i : S80x512.Idx) (q : dot_S80x512_S512x512_S80x512_1_0_0_1_n_n.contr.Idx) : (dot_S80x512_S512x512_S80x512_1_0_0_1_n_n.rhsIdx i q 1).val = (i 1).val := by
  unfold DotDims.rhsIdx
  rw [dif_neg (show ¬(1 : Fin S512x512.rank) ∈ dot_S80x512_S512x512_S80x512_1_0_0_1_n_n.rhsBatch by decide), dif_pos (show (1 : Fin S512x512.rank) ∈ dot_S80x512_S512x512_S80x512_1_0_0_1_n_n.rhsNonContracting by decide)]
  rfl
/-- The tile's left rows times the upper weights, into zero: entry (n, c) is the sum over the 512 features. -/
theorem tile_times_upper {φ₁ φ₂ : FTy} (L : FVec Ideal S80x512 φ₁) (R : FVec Ideal S512x512 φ₂) (n : Fin 80) (c : Fin 512) :
    FloatOps.matmul dot_S80x512_S512x512_S80x512_1_0_0_1_n_n none L R (constant S80x512 .f32 0x00000000#32) (ix2 n c)
      = ∑ k : Fin 512, L (ix2 n k) * R (ix2 k c) := by
  rw [Ideal.matmul_constant_zero_apply, ← Equiv.sum_comp (contrEquiv1 dot_S80x512_S512x512_S80x512_1_0_0_1_n_n 512 rfl rfl).symm]
  refine Finset.sum_congr rfl fun k _ => ?_
  have hk := contrEquiv1_symm_val dot_S80x512_S512x512_S80x512_1_0_0_1_n_n 512 rfl rfl k
  have el : dot_S80x512_S512x512_S80x512_1_0_0_1_n_n.lhsIdx (ix2 n c) ((contrEquiv1 dot_S80x512_S512x512_S80x512_1_0_0_1_n_n 512 rfl rfl).symm k) = ix2 n k := funext fun a => Fin.ext (by
    match a with
    | ⟨0, _⟩ => exact tile_times_upper_l0 _ _
    | ⟨1, _⟩ => exact (dot_S80x512_S512x512_S80x512_1_0_0_1_n_n.lhsIdx_val_of_single rfl _ _).trans hk)
  have er : dot_S80x512_S512x512_S80x512_1_0_0_1_n_n.rhsIdx (ix2 n c) ((contrEquiv1 dot_S80x512_S512x512_S80x512_1_0_0_1_n_n 512 rfl rfl).symm k) = ix2 k c := funext fun a => Fin.ext (by
    match a with
    | ⟨0, _⟩ => exact (dot_S80x512_S512x512_S80x512_1_0_0_1_n_n.rhsIdx_val_of_single rfl _ _).trans hk
    | ⟨1, _⟩ => exact tile_times_upper_r1 _ _)
  rw [el, er]

theorem rows_times_column_l0 (i : S5120x1.Idx) (q : dot_S5120x512_S512x1_S5120x1_1_0_0_1_n_n.contr.Idx) : (dot_S5120x512_S512x1_S5120x1_1_0_0_1_n_n.lhsIdx i q 0).val = (i 0).val := by
  unfold DotDims.lhsIdx
  rw [dif_neg (show ¬(0 : Fin S5120x512.rank) ∈ dot_S5120x512_S512x1_S5120x1_1_0_0_1_n_n.lhsBatch by decide), dif_pos (show (0 : Fin S5120x512.rank) ∈ dot_S5120x512_S512x1_S5120x1_1_0_0_1_n_n.lhsNonContracting by decide)]
  rfl
theorem rows_times_column_r1 (i : S5120x1.Idx) (q : dot_S5120x512_S512x1_S5120x1_1_0_0_1_n_n.contr.Idx) : (dot_S5120x512_S512x1_S5120x1_1_0_0_1_n_n.rhsIdx i q 1).val = (i 1).val := by
  unfold DotDims.rhsIdx
  rw [dif_neg (show ¬(1 : Fin S512x1.rank) ∈ dot_S5120x512_S512x1_S5120x1_1_0_0_1_n_n.rhsBatch by decide), dif_pos (show (1 : Fin S512x1.rank) ∈ dot_S5120x512_S512x1_S5120x1_1_0_0_1_n_n.rhsNonContracting by decide)]
  rfl
/-- The 5120 flattened hidden rows times the weight-difference column, into zero: entry (n, 0) is the sum over the 512 hidden units. -/
theorem rows_times_column {φ₁ φ₂ : FTy} (L : FVec Ideal S5120x512 φ₁) (R : FVec Ideal S512x1 φ₂) (n : Fin 5120) (c : Fin 1) :
    FloatOps.matmul dot_S5120x512_S512x1_S5120x1_1_0_0_1_n_n none L R (constant S5120x1 .f32 0x00000000#32) (ix2 n c)
      = ∑ k : Fin 512, L (ix2 n k) * R (ix2 k c) := by
  rw [Ideal.matmul_constant_zero_apply, ← Equiv.sum_comp (contrEquiv1 dot_S5120x512_S512x1_S5120x1_1_0_0_1_n_n 512 rfl rfl).symm]
  refine Finset.sum_congr rfl fun k _ => ?_
  have hk := contrEquiv1_symm_val dot_S5120x512_S512x1_S5120x1_1_0_0_1_n_n 512 rfl rfl k
  have el : dot_S5120x512_S512x1_S5120x1_1_0_0_1_n_n.lhsIdx (ix2 n c) ((contrEquiv1 dot_S5120x512_S512x1_S5120x1_1_0_0_1_n_n 512 rfl rfl).symm k) = ix2 n k := funext fun a => Fin.ext (by
    match a with
    | ⟨0, _⟩ => exact rows_times_column_l0 _ _
    | ⟨1, _⟩ => exact (dot_S5120x512_S512x1_S5120x1_1_0_0_1_n_n.lhsIdx_val_of_single rfl _ _).trans hk)
  have er : dot_S5120x512_S512x1_S5120x1_1_0_0_1_n_n.rhsIdx (ix2 n c) ((contrEquiv1 dot_S5120x512_S512x1_S5120x1_1_0_0_1_n_n 512 rfl rfl).symm k) = ix2 k c := funext fun a => Fin.ext (by
    match a with
    | ⟨0, _⟩ => exact (dot_S5120x512_S512x1_S5120x1_1_0_0_1_n_n.rhsIdx_val_of_single rfl _ _).trans hk
    | ⟨1, _⟩ => exact rows_times_column_r1 _ _)
  rw [el, er]

/-- The exponential of a vector, entry by entry. -/
theorem exp_apply {s : Shape} {φ : FTy} (a : FVec Ideal s φ) (i : s.Idx) : exp a i = Ideal.exp (a i) := rfl

/-- THE BODY AT A PAIR: entry (p, q, 0) of what the body stores. -/
theorem pay_apply (xl : Vec Ideal S80x512 .f32) (wu : Vec Ideal S512x512 .f32) (br : Vec Ideal S64x512 .f32) (b1 : Vec Ideal S512 .f32)
    (wd : Vec Ideal S512 .f32) (bd : Vec Ideal S1x1 .f32) (p : Fin 80) (q : Fin 64) :
    k0_pay1 (F := Ideal) xl wu br b1 wd bd (ix3 p q (0 : Fin 1))
      = Ideal.div 1 (1 + Ideal.exp (0 - ((∑ h : Fin 512,
          max (((∑ f : Fin 512, xl (ix2 p f) * wu (ix2 f h)) + br (ix2 q h)) + b1 (ix1 h)) 0 * wd (ix1 h)) + bd (ix2 (0 : Fin 1) (0 : Fin 1))))) := by
  unfold k0_pay1
  simp only [divf_apply, addf_apply, subf_apply, exp_apply, broadcast_apply, maximumf_apply, truncf_apply, shapeCast_self, matmul,
    unflatten_col, rows_times_column, flatten_rows, spread_left, spread_right, spread_bias, tile_times_upper, as_column, spread_scalar,
    Ideal.ofBits_def, Ideal.ofBits_one_f32, Ideal.ofBits_zero_f32, Ideal.ofBits_zero_bf16]

end Cert.KernelIdeal.PairValue

end
-- ==== Proof.PairScore.lean ====
/-
  The pairwise match score, written two ways.

  For every left sample `l` (1600 of them) and right sample `r` (64) a two-layer perceptron is applied to the
  concatenation of the left feature row `fl l` and the right feature row `fr r` (512 features each): a hidden layer
  of 512 units with weights `W1` (1024 × 512), bias `b1` and the positive part as activation, then two logits with
  weights `W2` (512 × 2) and bias `b2`; the score is the softmax probability of the second logit.

  `scoreR` spells that literally. `scoreK` spells the same number after two rearrangements: the hidden layer's sum
  over the 1024 concatenated features is split into the sum over the left 512 (against the upper half of `W1`) plus the
  sum over the right 512 (against the lower half), and the softmax of two logits is the logistic function of their
  difference, `1 / (1 + exp (−(z₁ − z₀)))`, the difference computed with the difference of the two weight columns and of
  the two biases. Everything is an extended real; the two agree when every entry is a real number (`PairLaw`).
-/
import Mathlib.Data.EReal.Basic
import Idealize.ShloMosaic.PureOps.Ideal
import Idealize.ShloMosaic.Lib.ValueIdx

noncomputable section

namespace Cert.PairScore

open Idealize.ShloMosaic Idealize.ShloMosaic.ValueIdx

/-- A rank-2 array as a function of its row and its column. -/
def rows2 {a b : Nat} (x : (⟨2, ![a, b]⟩ : Shape).Idx → EReal) : Fin a → Fin b → EReal := fun p q => x (ix2 p q)
/-- A rank-1 array as a function of its position. -/
def row1 {a : Nat} (x : (⟨1, ![a]⟩ : Shape).Idx → EReal) : Fin a → EReal := fun p => x (ix1 p)

variable (fl : Fin 1600 → Fin 512 → EReal) (fr : Fin 64 → Fin 512 → EReal) (W1 : Fin 1024 → Fin 512 → EReal)
  (b1 : Fin 512 → EReal) (W2 : Fin 512 → Fin 2 → EReal) (b2 : Fin 2 → EReal)

/-- Row `f` of the upper half of the first layer's weights. -/
abbrev up (f : Fin 512) : Fin 1024 := ⟨f.val, by omega⟩
/-- Row `f` of the lower half of the first layer's weights. -/
abbrev lo (f : Fin 512) : Fin 1024 := ⟨512 + f.val, by omega⟩

/-- Hidden unit `h` of the pair `(l, r)`, the first layer split into its left and right halves:
    `max ((∑_f fl l f · W1 f h + ∑_f fr r f · W1 (512 + f) h) + b1 h) 0`. -/
def hidK (l : Fin 1600) (r : Fin 64) (h : Fin 512) : EReal :=
  max (((∑ f : Fin 512, fl l f * W1 (up f) h) + (∑ f : Fin 512, fr r f * W1 (lo f) h)) + b1 h) 0

/-- The score as the logistic function of the logit difference:
    `1 / (1 + exp (0 − (∑_h hidK h · (W2 h 1 − W2 h 0) + (b2 1 − b2 0))))`. -/
def scoreK (l : Fin 1600) (r : Fin 64) : EReal :=
  Ideal.div 1 (1 + Ideal.exp (0 - ((∑ h : Fin 512, hidK fl fr W1 b1 l r h * (W2 h 1 - W2 h 0)) + (b2 1 - b2 0))))

/-- Feature `k` of the concatenated row of the pair `(l, r)`: the left row on the first 512 features, the right row
    on the last 512. -/
def cat (l : Fin 1600) (r : Fin 64) (k : Fin 1024) : EReal :=
  if hk : k.val < 512 then fl l ⟨k.val, hk⟩ else fr r ⟨k.val - 512, by omega⟩

/-- Hidden unit `h` of the pair `(l, r)` over the concatenated row: `max (∑_k cat k · W1 k h + b1 h) 0`. -/
def hidR (l : Fin 1600) (r : Fin 64) (h : Fin 512) : EReal :=
  max ((∑ k : Fin 1024, cat fl fr l r k * W1 k h) + b1 h) 0

/-- Logit `c` of the pair: `∑_h hidR h · W2 h c + b2 c`. -/
def logit (l : Fin 1600) (r : Fin 64) (c : Fin 2) : EReal :=
  (∑ h : Fin 512, hidR fl fr W1 b1 l r h * W2 h c) + b2 c

/-- The score as the softmax probability of logit 1, the larger logit subtracted before exponentiating:
    `exp (z₁ − M) / (exp (z₀ − M) + exp (z₁ − M))` with `M = max z₀ z₁`. -/
def scoreR (l : Fin 1600) (r : Fin 64) : EReal :=
  Ideal.div (Ideal.exp (logit fl fr W1 b1 W2 b2 l r 1 - max (logit fl fr W1 b1 W2 b2 l r 0) (logit fl fr W1 b1 W2 b2 l r 1)))
    (Ideal.exp (logit fl fr W1 b1 W2 b2 l r 0 - max (logit fl fr W1 b1 W2 b2 l r 0) (logit fl fr W1 b1 W2 b2 l r 1))
      + Ideal.exp (logit fl fr W1 b1 W2 b2 l r 1 - max (logit fl fr W1 b1 W2 b2 l r 0) (logit fl fr W1 b1 W2 b2 l r 1)))

/-- A score table as an array of shape [1600, 64]. -/
def scoreArr (score : Fin 1600 → Fin 64 → EReal) : (⟨2, ![1600, 64]⟩ : Shape).Idx → EReal :=
  fun i => score (i 0) (i 1)

end Cert.PairScore

end
-- ==== Proof.KHost.lean ====
/-
  The host operations in front of the pair-score kernel, as functions of the arguments, read at an index.

  Before the kernel is launched the program gathers the sampled left rows (1600 of 200000) and right rows (64 of
  100000) — both by the same gathers as the reference, so they stay unopened here —, cuts the first layer's weights
  `W1` [1024, 512] into its upper and lower halves, multiplies the right rows by the lower half (the right term
  [64, 512], a sum over 512 features; the changes of float format in front of the product are the identity on extended
  reals), and forms the difference of the two columns of the second layer's weights and of its two biases.
-/
import proofs.«114574_j23450521436163_2_alg».proof.Proof.Gen.KernelIdeal
import proofs.«114574_j23450521436163_2_alg».proof.Proof.PairScore
import Idealize.ShloMosaic.Lib.Pipeline.Value
import Idealize.ShloMosaic.Lib.ValueLayout
import Idealize.ShloMosaic.PureOps.Ideal.Laws

noncomputable section

namespace Cert.KernelIdeal.PairHost

open Idealize.ShloMosaic Idealize.ShloMosaic.ValueIdx Cert.KernelIdeal Cert.KernelIdeal.Facts₀ Cert.PairScore

/-- The start rows of the left gather: the sampled indices, a negative one counted from the end. -/
def startL (x6 : IVec S1600 32) : IVec S1600x1 32 :=
  broadcastInDim S1600x1 ![0] bcast_S1600_S1600x1_0 (select (cmpi .slt x6 (broadcastInDim S1600 ![] bcast_S_S1600 (constantI S_ 32 0#32)))
    (addi x6 (broadcastInDim S1600 ![] bcast_S_S1600 (constantI S_ 32 200000#32))) x6)
/-- The sampled left rows. -/
def rowsL (x0 : FVec Ideal S200000x512 .f32) (x6 : IVec S1600 32) : FVec Ideal S1600x512 .f32 :=
  Host.gather gather_S200000x512_S1600x1_S1600x512_1_0_n_n_0_1_1512 x0 (startL x6)
/-- The start rows of the right gather. -/
def startR (x7 : IVec S64 32) : IVec S64x1 32 :=
  broadcastInDim S64x1 ![0] bcast_S64_S64x1_0 (select (cmpi .slt x7 (broadcastInDim S64 ![] bcast_S_S64 (constantI S_ 32 0#32)))
    (addi x7 (broadcastInDim S64 ![] bcast_S_S64 (constantI S_ 32 100000#32))) x7)
/-- The sampled right rows. -/
def rowsR (x1 : FVec Ideal S100000x512 .f32) (x7 : IVec S64 32) : FVec Ideal S64x512 .f32 :=
  Host.gather gather_S100000x512_S64x1_S64x512_1_0_n_n_0_1_1512 x1 (startR x7)

/-- The upper half of the first layer's weights. -/
def upper (x2 : FVec Ideal S1024x512 .f32) : FVec Ideal S512x512 .f32 :=
  extractStridedSlice S512x512 ![0, 0] x2 slices_S1024x512_S512x512_0_0
/-- The right term: the right rows times the lower half of the first layer's weights. -/
def rightTerm (fr : FVec Ideal S64x512 .f32) (x2 : FVec Ideal S1024x512 .f32) : FVec Ideal S64x512 .f32 :=
  Host.dotGeneral dot_S64x512_S512x512_S64x512_1_0_0_1_n_n none (truncf .bf16 fr bitsLt_bf16_f32)
    (truncf .bf16 (extractStridedSlice S512x512 ![512, 0] x2 slices_S1024x512_S512x512_512_0) bitsLt_bf16_f32)
/-- The difference of the two columns of the second layer's weights. -/
def wdiff (x4 : FVec Ideal S512x2 .f32) : FVec Ideal S512 .f32 :=
  subf (shapeCast S512 (extractStridedSlice S512x1 ![0, 1] x4 slices_S512x2_S512x1_0_1) shapeCasts_S512x1_S512)
    (shapeCast S512 (extractStridedSlice S512x1 ![0, 0] x4 slices_S512x2_S512x1_0_0) shapeCasts_S512x1_S512)
/-- The difference of the second layer's two biases, as a [1, 1] array. -/
def bdiff (x5 : FVec Ideal S2 .f32) : FVec Ideal S1x1 .f32 :=
  shapeCast S1x1 (subf (shapeCast S_ (extractStridedSlice S1 ![1] x5 slices_S2_S1_1) shapeCasts_S1_S_)
    (shapeCast S_ (extractStridedSlice S1 ![0] x5 slices_S2_S1_0) shapeCasts_S1_S_)) shapeCasts_S_S1x1

theorem upper_apply (x2 : FVec Ideal S1024x512 .f32) (f h : Fin 512) : upper x2 (ix2 f h) = x2 (ix2 (up f) h) := by
  unfold upper
  exact slice2_axis0_apply 0 x2 _ f h (up f) (by show f.val = 0 + f.val; omega)

theorem host_l0 (i : S64x512.Idx) (q : dot_S64x512_S512x512_S64x512_1_0_0_1_n_n.contr.Idx) : (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem host_r1 (i : S64x512.Idx) (q : dot_S64x512_S512x512_S64x512_1_0_0_1_n_n.contr.Idx) : (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- Entry (q, h) of the right term is the sum over the 512 features of the right row times the lower weights. -/
theorem rightTerm_apply (fr : FVec Ideal S64x512 .f32) (x2 : FVec Ideal S1024x512 .f32) (q : Fin 64) (h : Fin 512) :
    rightTerm fr x2 (ix2 q h) = ∑ f : Fin 512, fr (ix2 q f) * x2 (ix2 (lo f) h) := by
  unfold rightTerm
  simp only [Host.dotGeneral]
  rw [Ideal.dotGeneral_apply, ← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  have el : dot_S64x512_S512x512_S64x512_1_0_0_1_n_n.lhsIdx (ix2 q h) ((contrEquiv1 dot_S64x512_S512x512_S64x512_1_0_0_1_n_n 512 rfl rfl).symm k) = ix2 q k := funext fun a => Fin.ext (by
    match a with
    | ⟨0, _⟩ => exact host_l0 _ _
    | ⟨1, _⟩ => exact (dot_S64x512_S512x512_S64x512_1_0_0_1_n_n.lhsIdx_val_of_single rfl _ _).trans hk)
  have er : dot_S64x512_S512x512_S64x512_1_0_0_1_n_n.rhsIdx (ix2 q h) ((contrEquiv1 dot_S64x512_S512x512_S64x512_1_0_0_1_n_n 512 rfl rfl).symm k) = ix2 k h := funext fun a => Fin.ext (by
    match a with
    | ⟨0, _⟩ => exact (dot_S64x512_S512x512_S64x512_1_0_0_1_n_n.rhsIdx_val_of_single rfl _ _).trans hk
    | ⟨1, _⟩ => exact host_r1 _ _)
  rw [el, er, truncf_apply, truncf_apply]
  exact congrArg (fr (ix2 q k) * ·) (slice2_axis0_apply 512 x2 _ k h (lo k) rfl)

/-- A [512, 1] array as a vector: entry h is entry (h, 0). -/
theorem col_as_vec {α : Type} (v : (⟨2, ![512, 1]⟩ : Shape).Idx → α) (hc : (⟨2, ![512, 1]⟩ : Shape).ShapeCasts ⟨1, ![512]⟩) (h : Fin 512) :
    shapeCast ⟨1, ![512]⟩ v hc (ix1 h) = v (ix2 h (0 : Fin 1)) :=
  shapeCast_apply v hc _ _ (by
    rw [Shape.rowMajor_val_one, Shape.rowMajor_val_two]
    show h.val * 1 + 0 = h.val
    omega)

theorem wdiff_apply (x4 : FVec Ideal S512x2 .f32) (h : Fin 512) : wdiff x4 (ix1 h) = x4 (ix2 h (1 : Fin 2)) - x4 (ix2 h (0 : Fin 2)) := by
  unfold wdiff
  rw [subf_apply, col_as_vec, col_as_vec]
  rw [slice2_axis1_apply 1 x4 _ h (0 : Fin 1) (1 : Fin 2) rfl, slice2_axis1_apply 0 x4 _ h (0 : Fin 1) (0 : Fin 2) rfl]

/-- A scalar as a [1, 1] array: its entry is the scalar. -/
theorem scalar_as_11 {α : Type} (v : (⟨0, ![]⟩ : Shape).Idx → α) (hc : (⟨0, ![]⟩ : Shape).ShapeCasts ⟨2, ![1, 1]⟩) (j : (⟨2, ![1, 1]⟩ : Shape).Idx) :
    shapeCast ⟨2, ![1, 1]⟩ v hc j = v ix0 := by
  unfold shapeCast
  exact congrArg v (funext fun a => a.elim0)

/-- A one-entry vector as a scalar: the scalar is its entry. -/
theorem one_as_scalar {α : Type} (v : (⟨1, ![1]⟩ : Shape).Idx → α) (hc : (⟨1, ![1]⟩ : Shape).ShapeCasts ⟨0, ![]⟩) (j : (⟨0, ![]⟩ : Shape).Idx) :
    shapeCast ⟨0, ![]⟩ v hc j = v (ix1 (0 : Fin 1)) := by
  unfold shapeCast
  refine congrArg v (funext fun a => ?_)
  match a with
  | ⟨0, h0⟩ =>
    apply Fin.ext
    have hlt := (Shape.reshapeEquiv hc j ⟨0, h0⟩).isLt
    change _ < 1 at hlt
    show ((Shape.reshapeEquiv hc j ⟨0, h0⟩ : _) : ℕ) = 0
    omega

theorem bdiff_apply (x5 : FVec Ideal S2 .f32) : bdiff x5 (ix2 (0 : Fin 1) (0 : Fin 1)) = x5 (ix1 (1 : Fin 2)) - x5 (ix1 (0 : Fin 2)) := by
  unfold bdiff
  rw [scalar_as_11, subf_apply, one_as_scalar, one_as_scalar]
  rw [extractStridedSlice_apply ![1] x5 _ (ix1 (0 : Fin 1)) (ix1 (1 : Fin 2)) (fun a => by match a with | ⟨0, _⟩ => rfl),
    extractStridedSlice_apply ![0] x5 _ (ix1 (0 : Fin 1)) (ix1 (0 : Fin 2)) (fun a => by match a with | ⟨0, _⟩ => rfl)]

end Cert.KernelIdeal.PairHost

end
-- ==== Proof.KWindows.lean ====
/-
  The arrays the pair-score kernel is launched on, as functions of the program's arguments.

  When the kernel's region is entered, its six input windows stage: the sampled left rows; the right term (the sampled
  right rows times the lower half of the first layer's weights); the upper half of those weights; the first layer's
  bias, which is an argument itself; the difference of the second layer's weight columns; and the difference of its
  biases. Each is what the host operations in front of the region computed from the arguments.
-/
import proofs.«114574_j23450521436163_2_alg».proof.Proof.Gen.KernelIdeal.Frame
import proofs.«114574_j23450521436163_2_alg».proof.Proof.KHost
import Idealize.ShloMosaic.Lib.StableHlo.Run

noncomputable section

namespace Cert.KernelIdeal.PairWindows

open Idealize.ShloMosaic Idealize.ShloMosaic.TcCoe Idealize.SL.Sem Idealize.ShloMosaic.StableHlo
open Cert.KernelIdeal Cert.KernelIdeal.Gen Cert.KernelIdeal.PairHost

variable (m : (ℓ : Loc nD τ sig) → Buf (Elt Ideal) ℓ)

/-- Window 0's array: the sampled left rows. -/
theorem V_left (c : Dev nD) : (V m c main_v6 : S1600x512.Idx → EReal)
    = rowsL (m ((c : Thread nD τ).loc main_arg0)) (m ((c : Thread nD τ).loc main_arg6)) := by
  show StableHlo.after hostOps0 (fun b => m (c, b)) (Proc.devRef .tc main_v6) = _
  after_results
  rfl

/-- Window 1's array: the right term. -/
theorem V_right (c : Dev nD) : (V m c main_v18 : S64x512.Idx → EReal)
    = rightTerm (rowsR (m ((c : Thread nD τ).loc main_arg1)) (m ((c : Thread nD τ).loc main_arg7))) (m ((c : Thread nD τ).loc main_arg2)) := by
  show StableHlo.after hostOps0 (fun b => m (c, b)) (Proc.devRef .tc main_v18) = _
  after_results_simp <;> rfl

/-- Window 2's array: the upper half of the first layer's weights. -/
theorem V_upper (c : Dev nD) : (V m c main_v14 : S512x512.Idx → EReal) = upper (m ((c : Thread nD τ).loc main_arg2)) := by
  show StableHlo.after hostOps0 (fun b => m (c, b)) (Proc.devRef .tc main_v14) = _
  after_results
  rfl

/-- Window 4's array: the difference of the second layer's weight columns. -/
theorem V_wdiff (c : Dev nD) : (V m c main_v23 : S512.Idx → EReal) = wdiff (m ((c : Thread nD τ).loc main_arg4)) := by
  show StableHlo.after hostOps0 (fun b => m (c, b)) (Proc.devRef .tc main_v23) = _
  after_results
  rfl

/-- Window 5's array: the difference of the second layer's biases. -/
theorem V_bdiff (c : Dev nD) : (V m c main_v29 : S1x1.Idx → EReal) = bdiff (m ((c : Thread nD τ).loc main_arg5)) := by
  show StableHlo.after hostOps0 (fun b => m (c, b)) (Proc.devRef .tc main_v29) = _
  after_results_simp <;> rfl

end Cert.KernelIdeal.PairWindows

end
-- ==== Proof.KSpec.lean ====
/-
  The score table the pair-score kernel leaves, named.

  `scoreOf m c` is the table of match scores of device `c`, written the kernel's way (`PairScore.scoreK`), of the
  arrays the program was launched on: the sampled left and right rows, the first layer's weights and bias, the second
  layer's weights and bias. `G3 m c` is the same table as an array [1600, 64, 1], the shape the kernel writes it in.
-/
import proofs.«114574_j23450521436163_2_alg».proof.Proof.KHost

noncomputable section

namespace Cert.KernelIdeal.PairValue

open Idealize.ShloMosaic Idealize.ShloMosaic.TcCoe Idealize.SL.Sem
open Cert.KernelIdeal Cert.KernelIdeal.PairHost Cert.PairScore

variable (m : (ℓ : Loc nD τ sig) → Buf (Elt Ideal) ℓ)

/-- The match scores of device `c`, from the arrays it was launched on. -/
def scoreOf (c : Dev nD) : Fin 1600 → Fin 64 → EReal :=
  scoreK (rows2 (rowsL (m ((c : Thread nD τ).loc main_arg0)) (m ((c : Thread nD τ).loc main_arg6))))
    (rows2 (rowsR (m ((c : Thread nD τ).loc main_arg1)) (m ((c : Thread nD τ).loc main_arg7))))
    (rows2 (m ((c : Thread nD τ).loc main_arg2))) (row1 (m ((c : Thread nD τ).loc main_arg3)))
    (rows2 (m ((c : Thread nD τ).loc main_arg4))) (row1 (m ((c : Thread nD τ).loc main_arg5)))

/-- The same table as an array [1600, 64, 1]. -/
def G3 (c : Dev nD) : S1600x64x1.Idx → EReal := fun i => scoreOf m c (i 0) (i 1)

end Cert.KernelIdeal.PairValue

end
-- ==== Proof.KBlocks.lean ====
/-
  From tiles to the whole score table.

  The kernel runs at 20 grid points. At point `t` it is handed rows 80 t … 80 t + 79 of the sampled left rows and the
  whole of its five other inputs, and writes back rows 80 t … 80 t + 79 of the output [1600, 64, 1]. Entry (p, q, 0) of
  what point `t` writes is the body's value at the pair (p, q) of its tile (`pay_apply`), its inputs the arrays the
  host operations computed (`PairWindows`, `PairHost`): that is the score of the pair (80 t + p, q). The 20 tiles
  cover the output, so after the run the output array is the score table.
-/
import proofs.«114574_j23450521436163_2_alg».proof.Proof.Gen.KernelIdeal.Frame
import proofs.«114574_j23450521436163_2_alg».proof.Proof.KPay
import proofs.«114574_j23450521436163_2_alg».proof.Proof.KWindows
import proofs.«114574_j23450521436163_2_alg».proof.Proof.KSpec
import Idealize.ShloMosaic.Lib.Pipeline.Value

noncomputable section

namespace Cert.KernelIdeal.PairBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.PairHost Cert.KernelIdeal.PairValue Cert.KernelIdeal.PairWindows Cert.PairScore

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block index maps, decided over the 20 points: the left rows' window moves with the output's on the row axis;
    every other input is one block; the output's block index is the point's, below 20, and zero on its other axes. -/
theorem idx_facts : ∀ t : Fin cfg0.N,
    win0_0.index t (0 : Fin 2) = win0_6.index t (0 : Fin 3) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (1 : Fin 3) = 0 ∧ win0_6.index t (2 : Fin 3) = 0 ∧ win0_6.index t (0 : Fin 3) ≤ 19 :=
  (by decide +kernel : ∀ t : Fin grid0.N, _)

/-- Every one of the 20 row tiles is some point's. -/
theorem idx_onto : ∀ b : Fin 20, ∃ t : Fin cfg0.N, win0_6.index t = ![b.val, 0, 0] :=
  (by decide +kernel : ∀ b : Fin 20, ∃ t : Fin grid0.N, win0_6.index t = ![b.val, 0, 0])

/-- The row of the table that row `p` of point `t`'s tile is. -/
def row (t : Fin cfg0.N) (p : Fin 80) : Fin 1600 :=
  ⟨win0_6.index t (0 : Fin 3) * 80 + p.val, by have := (idx_facts t).2.2.2.2.2.2.2.2.2.2.2.2; omega⟩

/-! ## The blocks the body is handed -/

theorem read_left (c : Dev nD) (t : Fin cfg0.N) (p : Fin 80) (f : Fin 512) :
    iblk m c 0 t (ix2 p f) = rowsL (m ((c : Thread nD τ).loc main_arg0)) (m ((c : Thread nD τ).loc main_arg6)) (ix2 (row t p) f) := by
  rw [← V_left m c]
  show V m c main_v6 (((cfg0.win 0).blk t).view.emb (ix2 p f)) = V m c main_v6 (ix2 (row t p) f)
  refine congrArg _ (funext fun a => Fin.ext ?_)
  obtain ⟨e0, e1, -⟩ := idx_facts t
  match a with
  | ⟨0, _⟩ => show win0_0.index t (0 : Fin 2) * 80 + 1 * p.val = win0_6.index t (0 : Fin 3) * 80 + p.val; omega
  | ⟨1, _⟩ => show win0_0.index t (1 : Fin 2) * 512 + 1 * f.val = f.val; omega

theorem read_right (c : Dev nD) (t : Fin cfg0.N) (y : S64x512.Idx) :
    iblk m c 1 t y = rightTerm (rowsR (m ((c : Thread nD τ).loc main_arg1)) (m ((c : Thread nD τ).loc main_arg7))) (m ((c : Thread nD τ).loc main_arg2)) y := by
  rw [← V_right m c]
  show V m c main_v18 (((cfg0.win 1).blk t).view.emb y) = V m c main_v18 y
  refine congrArg _ (funext fun a => Fin.ext ?_)
  obtain ⟨-, -, e2, e3, -⟩ := idx_facts t
  match a with
  | ⟨0, _⟩ => show win0_1.index t (0 : Fin 2) * 64 + 1 * (y 0).val = (y 0).val; omega
  | ⟨1, _⟩ => show win0_1.index t (1 : Fin 2) * 512 + 1 * (y 1).val = (y 1).val; omega

theorem read_upper (c : Dev nD) (t : Fin cfg0.N) (y : S512x512.Idx) :
    iblk m c 2 t y = upper (m ((c : Thread nD τ).loc main_arg2)) y := by
  rw [← V_upper m c]
  show V m c main_v14 (((cfg0.win 2).blk t).view.emb y) = V m c main_v14 y
  refine congrArg _ (funext fun a => Fin.ext ?_)
  obtain ⟨-, -, -, -, e4, e5, -⟩ := idx_facts t
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem read_bias (c : Dev nD) (t : Fin cfg0.N) (y : S512.Idx) :
    iblk m c 3 t y = m ((c : Thread nD τ).loc main_arg3) y := by
  rw [← V_main_arg3 m c]
  show V m c main_arg3 (((cfg0.win 3).blk t).view.emb y) = V m c main_arg3 y
  refine congrArg _ (funext fun a => Fin.ext ?_)
  obtain ⟨-, -, -, -, -, -, e6, -⟩ := idx_facts t
  match a with
  | ⟨0, _⟩ => show win0_3.index t (0 : Fin 1) * 512 + 1 * (y 0).val = (y 0).val; omega

theorem read_wdiff (c : Dev nD) (t : Fin cfg0.N) (y : S512.Idx) :
    iblk m c 4 t y = wdiff (m ((c : Thread nD τ).loc main_arg4)) y := by
  rw [← V_wdiff m c]
  show V m c main_v23 (((cfg0.win 4).blk t).view.emb y) = V m c main_v23 y
  refine congrArg _ (funext fun a => Fin.ext ?_)
  obtain ⟨-, -, -, -, -, -, -, e7, -⟩ := idx_facts t
  match a with
  | ⟨0, _⟩ => show win0_4.index t (0 : Fin 1) * 512 + 1 * (y 0).val = (y 0).val; omega

theorem read_bdiff (c : Dev nD) (t : Fin cfg0.N) (y : S1x1.Idx) :
    iblk m c 5 t y = bdiff (m ((c : Thread nD τ).loc main_arg5)) y := by
  rw [← V_bdiff m c]
  show V m c main_v29 (((cfg0.win 5).blk t).view.emb y) = V m c main_v29 y
  refine congrArg _ (funext fun a => Fin.ext ?_)
  obtain ⟨-, -, -, -, -, -, -, -, e8, e9, -⟩ := idx_facts t
  match a with
  | ⟨0, _⟩ => show win0_5.index t (0 : Fin 2) * 1 + 1 * (y 0).val = (y 0).val; omega
  | ⟨1, _⟩ => show win0_5.index t (1 : Fin 2) * 1 + 1 * (y 1).val = (y 1).val; omega

/-- Where entry (p, q, 0) of point `t`'s output block sits in the output array. -/
theorem emb_out (t : Fin cfg0.N) (p : Fin 80) (q : Fin 64) :
    ((cfg0.win 6).blk t).view.emb (ix3 p q (0 : Fin 1)) = ix3 (row t p) q (0 : Fin 1) := by
  funext a
  apply Fin.ext
  obtain ⟨-, -, -, -, -, -, -, -, -, -, e10, e11, -⟩ := idx_facts t
  match a with
  | ⟨0, _⟩ => show win0_6.index t (0 : Fin 3) * 80 + 1 * p.val = win0_6.index t (0 : Fin 3) * 80 + p.val; omega
  | ⟨1, _⟩ => show win0_6.index t (1 : Fin 3) * 64 + 1 * q.val = q.val; omega
  | ⟨2, _⟩ => show win0_6.index t (2 : Fin 3) * 1 + 1 * 0 = 0; omega

/-! ## What a point writes back -/

/-- WHAT POINT `t` WRITES BACK is block `t` of the score table. -/
theorem flushed_eq (c : Dev nD) (t : Fin cfg0.N) :
    (dats m 0 c).flushed 6 t = ((cfg0.win 6).blk t).view.read (Elt Ideal) (G3 m c) := by
  show (cfg0.win 6).cut (grid0.coords t) ((dats m 0 c).after 6 t) = _
  rw [after0_6]
  unfold out0_6
  rw [View.canon_unit_zero hz3]
  simp only [View.ld_unit_zero (S := S80x512) hz2, View.ld_unit_zero (S := S512x512) hz2, View.ld_unit_zero (S := S64x512) hz2,
    View.ld_unit_zero (S := S512) hz1, View.ld_unit_zero (S := S1x1) hz2]
  funext j
  obtain ⟨p, q, z, rfl⟩ : ∃ (p : Fin 80) (q : Fin 64) (z : Fin 1), j = ix3 p q z := ⟨j 0, j 1, j 2, eq_ix3 (n0 := 80) (n1 := 64) (n2 := 1) j⟩
  obtain rfl : z = 0 := Subsingleton.elim _ _
  show k0_pay1 (iblk m c 0 t) (iblk m c 2 t) (iblk m c 1 t) (iblk m c 3 t) (iblk m c 4 t) (iblk m c 5 t) (ix3 p q (0 : Fin 1))
    = G3 m c (((cfg0.win 6).blk t).view.emb (ix3 p q (0 : Fin 1)))
  rw [emb_out t p q]
  refine (pay_apply (iblk m c 0 t) (iblk m c 2 t) (iblk m c 1 t) (iblk m c 3 t) (iblk m c 4 t) (iblk m c 5 t) p q).trans ?_
  simp only [read_left m c t, read_right m c t, read_upper m c t, read_bias m c t, read_wdiff m c t, read_bdiff m c t,
    rightTerm_apply, upper_apply, wdiff_apply, bdiff_apply]
  rfl

/-! ## The cover, and the array after the run -/

theorem mem_blk (t : Fin cfg0.N) (i : S1600x64x1.Idx) :
    i ∈ ((cfg0.win 6).blk t).view.set ↔ ∀ a : Fin 3, win0_6.index t a * S80x64x1.size a ≤ (i a).val ∧ (i a).val < win0_6.index t a * S80x64x1.size a + S80x64x1.size a := by
  show i ∈ ((View.whole main_v30).slice (win0_6.rect t)).set ↔ _
  rw [View.set_slice_whole, Rect.mem_set_unit]
  exact Iff.rfl

/-- Every entry of the output array is in the tile of the point numbered by its row divided by 80. -/
theorem cover (i : S1600x64x1.Idx) : ∃ t : Fin cfg0.N, (cfg0.win 6).flush t = true ∧ i ∈ ((cfg0.win 6).blk t).view.set := by
  have hi0 : (i 0).val < 1600 := (i 0).isLt
  have hi1 : (i 1).val < 64 := (i 1).isLt
  have hi2 : (i 2).val < 1 := (i 2).isLt
  obtain ⟨t, ht⟩ := idx_onto ⟨(i 0).val / 80, by omega⟩
  have q0 : win0_6.index t (0 : Fin 3) = (i 0).val / 80 := congrFun ht 0
  have q1 : win0_6.index t (1 : Fin 3) = 0 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 80 ≤ (i 0).val ∧ (i 0).val < win0_6.index t (0 : Fin 3) * 80 + 80; omega
  | ⟨1, _⟩ => show win0_6.index t (1 : Fin 3) * 64 ≤ (i 1).val ∧ (i 1).val < win0_6.index t (1 : Fin 3) * 64 + 64; omega
  | ⟨2, _⟩ => show win0_6.index t (2 : Fin 3) * 1 ≤ (i 2).val ∧ (i 2).val < win0_6.index t (2 : Fin 3) * 1 + 1; omega

/-- THE OUTPUT ARRAY after the run is the score table. -/
theorem final (c : Dev nD) : (dats m 0 c).arrAt 6 cfg0.N = G3 m c :=
  (dats m 0 c).arrAt_eq_of_cover 6 (G3 m c) (fun t _ => flushed_eq m c t) (fun i => cover i)

end Cert.KernelIdeal.PairBlocks

end
-- ==== Proof.KRun.lean ====
/-
  The kernel program's run, read at its result and at its arguments.

  The program gathers and prepares its operands on the host, runs the kernel over its grid, which leaves the score
  table as an array [1600, 64, 1], and ends with one host operation that drops the unit axis. The run of the whole
  program leaves every array of the kernel at what the proof data computes and every other buffer at what the last
  host operation makes of the contents at the kernel's exit. Here that is read at the result buffer — entry (l, r) of
  the reshaped table is entry (l, r, 0) of the kernel's output, the score of the pair (l, r) — and at the eight
  argument buffers, none of which any operation writes.
-/
import proofs.«114574_j23450521436163_2_alg».proof.Proof.Gen.KernelIdeal.Frame
import proofs.«114574_j23450521436163_2_alg».proof.Proof.KSpec
import Idealize.ShloMosaic.Lib.StableHlo.Run
import Idealize.ShloMosaic.Lib.Pipeline.Value
import Idealize.ShloMosaic.Lib.ValueIdx

noncomputable section

namespace Cert.KernelIdeal.PairRun

open Idealize.ShloMosaic Idealize.ShloMosaic.ValueIdx Idealize.ShloMosaic.TcCoe Idealize.SL.Sem Idealize.ShloMosaic.StableHlo
open Cert.KernelIdeal Cert.KernelIdeal.Gen Cert.KernelIdeal.PairValue Cert.PairScore

variable (m : (ℓ : Loc nD τ sig) → Buf (Elt Ideal) ℓ)

/-- An array [1600, 64, 1] viewed as [1600, 64]: entry (l, r) is entry (l, r, 0), the two having the same row-major
    position. -/
theorem drop_unit_at {α : Type} (v : S1600x64x1.Idx → α) (hc : S1600x64x1.ShapeCasts S1600x64) (l : Fin 1600) (r : Fin 64) :
    shapeCast S1600x64 v hc (ix2 l r) = v (ix3 l r (0 : Fin 1)) :=
  shapeCast_apply v hc _ _ (by
    rw [Shape.rowMajor_val_three, Shape.rowMajor_val_two]
    show (l.val * 64 + r.val) * 1 + 0 = l.val * 64 + r.val
    omega)

/-- What the result buffer holds after the last host operation: the kernel's output array with its unit axis dropped,
    which is the score table, given that the kernel's output array is the score table as an array [1600, 64, 1]. -/
theorem tail_eq (hfinal : ∀ c : Dev nD, (dats m 0 c).arrAt 6 cfg0.N = G3 m c) (c : Dev nD) :
    Pipeline.afterTail₀ cfgs (dats m) 0 (V0 m) [hostOps1] c main_v31 = scoreArr (scoreOf m c) := by
  unfold Pipeline.afterTail₀
  show StableHlo.after hostOps1 _ (Proc.devRef .tc main_v31) = _
  after_results
  have hW : Pipeline.withArrays (cfgs 0).spec c (V0 m c) (fun w => (dats m 0 c).arrAt w (cfgs 0).N)
      (Proc.devRef .tc main_v30) = G3 m c :=
    (Pipeline.withArrays_arr spec0 launch0.win.arr_inj c _ _ 6).trans (hfinal c)
  funext i
  obtain ⟨l, r, rfl⟩ : ∃ (l : Fin 1600) (r : Fin 64), i = ix2 l r := ⟨i 0, i 1, eq_ix2 i⟩
  show shapeCast S1600x64 (Pipeline.withArrays (cfgs 0).spec c (V0 m c) (fun w => (dats m 0 c).arrAt w (cfgs 0).N)
      (Proc.devRef .tc main_v30)) shapeCasts_S1600x64x1_S1600x64 (ix2 l r) = _
  rw [hW]
  exact drop_unit_at (G3 m c) _ l r

/-- The run of the kernel program from any memory with zero counters: every execution terminates with the score table
    in the result buffer and the eight arguments as they were launched. The result buffer and the arguments that are
    no array of the kernel are read off the last host operation's contents; the first layer's bias, which the kernel
    reads as an array of its own, off the proof data, an input array ending as it was found. -/
theorem run_of_final (ρ : Dev nD → PrngReg)
    (hfinal : ∀ c : Dev nD, (dats m 0 c).arrAt 6 cfg0.N = G3 m c) :
    θ_run (defs (F := Ideal)) (onTc (τ := τ) (main (F := Ideal))) ⟨m, fun _ => 0, ρ⟩ (fun r => ∀ c : Dev nD,
      r.2.mem ((c.tc : Thread nD τ).loc main_v31) = scoreArr (scoreOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v31 (Pipeline.mem_restRefs_of main_v31 (by decide) (by decide))).trans (tail_eq m hfinal c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.PairRun

end
-- ==== Proof.FiniteArgs.lean ====
/-
  Two facts about the inputs of the pair-score kernel.

  First, a gathered array has no entries of its own: every entry of the result of a gather is an entry of the
  operand it gathers from, whatever the index words say (a start index outside the operand is clamped into it).

  Second, the precondition "every float argument has finite absolute value" means that every entry of every
  float argument is a real number (neither of the two infinities of the extended reals). The precondition is a
  conjunction of six statements "all entries x of this array satisfy |x| < +∞"; each "all" is a reduction by
  "and" that came out true, so each entry's comparison came out true; and in the extended reals
  |x| = max x (−x) is below +∞ exactly when x is neither −∞ nor +∞.
-/
import proofs.«114574_j23450521436163_2_alg».proof.Defs
import Idealize.ShloMosaic.Lib.ReduceAll
import Idealize.ShloMosaic.Lib.ValueIdx

noncomputable section

namespace Cert.KernelIdeal.Finite

open Idealize.ShloMosaic Idealize.ShloMosaic.ValueIdx Idealize.SL.Sem

/-! ### A gathered entry is an entry of the operand -/

/-- Every entry of a gathered array is an entry of the operand: the gather reads the operand at an index computed
    from the result's index and the index words, so that index is the witness. -/
theorem gather_entry {α : Type} {w : Nat} {s si t : Shape} (d : GatherDims s si t) (x : s.Idx → α) (idx : IVec si w)
    (i : t.Idx) : ∃ j, Host.gather d x idx i = x j :=
  ⟨d.operandIdx i idx, rfl⟩

/-- The gather of the left rows: each of its entries is an entry of the left table. -/
theorem gather_l_entry [Cert.KernelIdeal.Facts₀]
    (x : (⟨Cert.KernelIdeal.S200000x512, .f32⟩ : BufTy).Contents (Elt Ideal))
    (idx : (⟨Cert.KernelIdeal.S1600x1, .i32⟩ : BufTy).Contents (Elt Ideal)) (i : Cert.KernelIdeal.S1600x512.Idx) :
    ∃ j, Host.gather Cert.KernelIdeal.gather_S200000x512_S1600x1_S1600x512_1_0_n_n_0_1_1512 x idx i = x j :=
  ⟨_, rfl⟩

/-- The gather of the right rows: each of its entries is an entry of the right table. -/
theorem gather_r_entry [Cert.KernelIdeal.Facts₀]
    (x : (⟨Cert.KernelIdeal.S100000x512, .f32⟩ : BufTy).Contents (Elt Ideal))
    (idx : (⟨Cert.KernelIdeal.S64x1, .i32⟩ : BufTy).Contents (Elt Ideal)) (i : Cert.KernelIdeal.S64x512.Idx) :
    ∃ j, Host.gather Cert.KernelIdeal.gather_S100000x512_S64x1_S64x512_1_0_n_n_0_1_1512 x idx i = x j :=
  ⟨_, rfl⟩

/-! ### Finite absolute value means a real number -/

/-- The single-precision pattern with all exponent bits set, a clear sign and a zero significand denotes +∞. -/
theorem ofBits_inf : Ideal.ofBits .f32 0x7F800000#32 = (⊤ : EReal) := by
  simp [Ideal.ofBits, Ideal.ieee]

/-- An extended real whose absolute value `max x (−x)` compares below +∞ is a real number: for `x = −∞` the
    absolute value is `max (−∞) (+∞) = +∞`, for `x = +∞` it is `max (+∞) (−∞) = +∞`, and `+∞ < +∞` is false;
    a real number is its own witness. -/
theorem real_of_abs_lt_top (x : EReal) (h : Ideal.cmp .olt (max x (-x)) ⊤ = 1#1) : ∃ r : ℝ, x = ↑r := by
  -- the comparison is the truth value of `max x (−x) < ⊤` written as one bit; the bit is 1, so the inequality holds
  have hb : ∀ b : Bool, BitVec.ofBool b = 1#1 → b = true := by decide
  have h' : max x (-x) < ⊤ := of_decide_eq_true (hb _ h)
  induction x using EReal.rec with
  | bot => simp at h'
  | coe r => exact ⟨r, rfl⟩
  | top => simp at h'

/-- An array of rank 0 has exactly one index. -/
instance subsingleton_idx0 : Subsingleton (⟨0, ![]⟩ : Shape).Idx := ⟨fun a b => funext fun d => d.elim0⟩

/-- One array, any shape: if "all entries have absolute value below +∞" — the reduction by "and", over all axes, of
    the entrywise comparison of `|x|` with the +∞ pattern broadcast to the array's shape — came out true, then every
    entry is a real number. A reduction by "and" from 1 that is 1 met only 1s, so the comparison is true at each
    index `i`; there it reads `max (x i) (−(x i)) < +∞`. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (x : FVec Ideal s .f32)
    (e : Host.reduce IntOp.andi
          (cmpf .olt (Host.absf x) (broadcastInDim s ![] hb (constant (⟨0, ![]⟩ : Shape) .f32 0x7F800000#32)))
          (constantI (⟨0, ![]⟩ : Shape) 1 1#1) hr hu ix0 = 1#1) (i : s.Idx) : ∃ r : ℝ, x i = (r : EReal) := by
  have h := Host.reduce_andi_all _ _ hr hu ix0 e i
  refine real_of_abs_lt_top (x i) ?_
  rw [← ofBits_inf]
  exact h

/-- Under the kernel's precondition, on every device, every entry of each of the six float arguments (the two
    feature tables, the two weight matrices and the two biases) is a real number. The precondition is the "and" of
    six "all entries are finite" bits and equals 1, so each of the six is 1, and `all_real` reads each of them. -/
theorem args_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal)) := by
  -- the precondition at the one index of its rank-0 result
  have h := congrFun (hpre c) ValueIdx.ix0
  -- spelt out: a five-fold "and" of the six reductions, each read at that index
  dsimp only [Cert.Pre_finite_inputs.fn, Cert.Pre_finite_inputs.fn_part1, Idealize.ShloMosaic.andi] at h
  -- an "and" of two bits is 1 exactly when both are
  simp only [IntOp.andi_eq_one] at h
  obtain ⟨⟨⟨⟨⟨h0, h1⟩, h2⟩, h3⟩, h4⟩, h5⟩ := h
  exact ⟨fun i => all_real _ _ _ _ h0 i, fun i => all_real _ _ _ _ h1 i, fun i => all_real _ _ _ _ h2 i,
    fun i => all_real _ _ _ _ h3 i, fun i => all_real _ _ _ _ h4 i, fun i => all_real _ _ _ _ h5 i⟩

end Cert.KernelIdeal.Finite

end
-- ==== Proof.PairLaw.lean ====
/-
  The two spellings of the pairwise match score agree when every entry is a real number.

  Two facts are used. First, the hidden layer's sum over the 1024 concatenated features is the sum over the first
  512 (the left row against the upper half of the weights) plus the sum over the last 512 (the right row against the
  lower half): this is a re-grouping of a finite sum and holds for all extended reals. Second, for real logits
  z₀ z₁ the softmax probability exp (z₁ - M) / (exp (z₀ - M) + exp (z₁ - M)) does not depend on the number M that
  is subtracted and equals 1 / (1 + exp (-(z₁ - z₀))); and the logit difference z₁ - z₀ is the sum against the
  difference of the two weight columns plus the difference of the two biases. The second fact needs distributivity,
  which fails at the infinities, hence the hypothesis that every entry is real.
-/
import proofs.«114574_j23450521436163_2_alg».proof.Proof.PairScore
import Mathlib.Analysis.SpecialFunctions.Exp
import Mathlib.Algebra.BigOperators.Fin
import Mathlib.Data.EReal.Inv
import Mathlib.Tactic

noncomputable section

namespace Cert.PairScore

open Idealize.ShloMosaic Idealize.ShloMosaic.ValueIdx

/-! ### The hidden layer: splitting the sum over the concatenated row -/

/-- On the first 512 features the concatenated row is the left row. -/
theorem cat_left (fl : Fin 1600 → Fin 512 → EReal) (fr : Fin 64 → Fin 512 → EReal)
    (l : Fin 1600) (r : Fin 64) (f : Fin 512) : cat fl fr l r (up f) = fl l f := by
  have hlt : (up f).val < 512 := f.isLt
  rw [cat, dif_pos hlt]

/-- On the last 512 features the concatenated row is the right row. -/
theorem cat_right (fl : Fin 1600 → Fin 512 → EReal) (fr : Fin 64 → Fin 512 → EReal)
    (l : Fin 1600) (r : Fin 64) (f : Fin 512) : cat fl fr l r (lo f) = fr r f := by
  have hge : ¬ (lo f).val < 512 := by simp only [lo]; omega
  rw [cat, dif_neg hge]
  congr 1
  apply Fin.ext
  simp only [lo]
  omega

/-- The sum over the 1024 concatenated features is the sum over the left 512 plus the sum over the right 512. -/
theorem sum_cat_split (fl : Fin 1600 → Fin 512 → EReal) (fr : Fin 64 → Fin 512 → EReal)
    (W1 : Fin 1024 → Fin 512 → EReal) (l : Fin 1600) (r : Fin 64) (h : Fin 512) :
    (∑ k : Fin 1024, cat fl fr l r k * W1 k h)
      = (∑ f : Fin 512, fl l f * W1 (up f) h) + (∑ f : Fin 512, fr r f * W1 (lo f) h) := by
  have hsplit := Fin.sum_univ_add (M := EReal) (a := 512) (b := 512)
    (fun k : Fin (512 + 512) => cat fl fr l r k * W1 k h)
  refine hsplit.trans ?_
  refine congrArg₂ (· + ·) ?_ ?_
  · refine Finset.sum_congr rfl (fun f _ => ?_)
    show cat fl fr l r (up f) * W1 (up f) h = fl l f * W1 (up f) h
    rw [cat_left]
  · refine Finset.sum_congr rfl (fun f _ => ?_)
    show cat fl fr l r (lo f) * W1 (lo f) h = fr r f * W1 (lo f) h
    rw [cat_right]

/-- The two spellings of a hidden unit agree, for all extended reals. -/
theorem hidK_eq_hidR (fl : Fin 1600 → Fin 512 → EReal) (fr : Fin 64 → Fin 512 → EReal)
    (W1 : Fin 1024 → Fin 512 → EReal) (b1 : Fin 512 → EReal) (l : Fin 1600) (r : Fin 64) (h : Fin 512) :
    hidK fl fr W1 b1 l r h = hidR fl fr W1 b1 l r h := by
  rw [hidK, hidR, sum_cat_split]

/-! ### Real numbers inside the extended reals -/

/-- A finite sum of real numbers, computed in the extended reals, is the real sum. -/
theorem ereal_coe_sum {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The larger of two real numbers, computed in the extended reals, is the real maximum. -/
theorem ereal_coe_max (a b : ℝ) : max (a : EReal) (b : EReal) = ((max a b : ℝ) : EReal) :=
  (EReal.coe_strictMono.monotone.map_max).symm

/-- The logistic expression at a real argument is a real number: the denominator 1 + exp (-d) is positive. -/
theorem div_logistic_coe (d : ℝ) :
    Ideal.div 1 (1 + Ideal.exp (0 - (d : EReal))) = ((1 / (1 + Real.exp (0 - d)) : ℝ) : EReal) := by
  have hne : (1 + Real.exp (0 - d)) ≠ 0 := by positivity
  rw [← EReal.coe_zero, ← EReal.coe_sub, Ideal.exp_coe, ← EReal.coe_one, ← EReal.coe_add, Ideal.div_coe hne,
    ← EReal.coe_mul, one_mul]

/-- The two-way softmax expression at real arguments is a real number: the denominator, a sum of two
    exponentials, is positive. -/
theorem div_softmax_coe (z0 z1 M : ℝ) :
    Ideal.div (Ideal.exp ((z1 - M : ℝ) : EReal))
        (Ideal.exp ((z0 - M : ℝ) : EReal) + Ideal.exp ((z1 - M : ℝ) : EReal))
      = ((Real.exp (z1 - M) / (Real.exp (z0 - M) + Real.exp (z1 - M)) : ℝ) : EReal) := by
  have hne : (Real.exp (z0 - M) + Real.exp (z1 - M)) ≠ 0 := by positivity
  rw [Ideal.exp_coe, Ideal.exp_coe, ← EReal.coe_add, Ideal.div_coe hne, ← EReal.coe_mul, mul_one_div]

/-! ### The identity over the real numbers -/

/-- The softmax probability of the second of two logits is the logistic function of their difference, whatever
    number `M` is subtracted from both before exponentiating: divide numerator and denominator by exp (z₁ - M). -/
theorem softmax_two_eq_logistic (z0 z1 M : ℝ) :
    Real.exp (z1 - M) / (Real.exp (z0 - M) + Real.exp (z1 - M)) = 1 / (1 + Real.exp (0 - (z1 - z0))) := by
  have h1 : Real.exp (z0 - M) = Real.exp (z1 - M) * Real.exp (0 - (z1 - z0)) := by
    rw [← Real.exp_add]; congr 1; ring
  have hpos : 0 < Real.exp (z1 - M) := Real.exp_pos _
  have hpos' : 0 < Real.exp (0 - (z1 - z0)) := Real.exp_pos _
  rw [h1, div_eq_div_iff (by positivity) (by positivity)]
  ring

/-- The difference of the two logits is the sum against the difference of the weight columns plus the difference
    of the biases. -/
theorem logit_diff (hid : Fin 512 → ℝ) (W2 : Fin 512 → Fin 2 → ℝ) (b2 : Fin 2 → ℝ) :
    (∑ h : Fin 512, hid h * (W2 h 1 - W2 h 0)) + (b2 1 - b2 0)
      = ((∑ h : Fin 512, hid h * W2 h 1) + b2 1) - ((∑ h : Fin 512, hid h * W2 h 0) + b2 0) := by
  simp only [mul_sub, Finset.sum_sub_distrib]
  ring

/-! ### The layers at real entries -/

/-- The hidden unit over the real numbers. -/
def hidReal (flr : Fin 1600 → Fin 512 → ℝ) (frr : Fin 64 → Fin 512 → ℝ) (W1r : Fin 1024 → Fin 512 → ℝ)
    (b1r : Fin 512 → ℝ) (l : Fin 1600) (r : Fin 64) (h : Fin 512) : ℝ :=
  max (((∑ f : Fin 512, flr l f * W1r (up f) h) + (∑ f : Fin 512, frr r f * W1r (lo f) h)) + b1r h) 0

/-- At real entries a hidden unit is a real number. -/
theorem hidK_coe (flr : Fin 1600 → Fin 512 → ℝ) (frr : Fin 64 → Fin 512 → ℝ) (W1r : Fin 1024 → Fin 512 → ℝ)
    (b1r : Fin 512 → ℝ) (l : Fin 1600) (r : Fin 64) (h : Fin 512) :
    hidK (fun l f => (flr l f : EReal)) (fun r f => (frr r f : EReal)) (fun k h => (W1r k h : EReal))
        (fun h => (b1r h : EReal)) l r h
      = ((hidReal flr frr W1r b1r l r h : ℝ) : EReal) := by
  simp only [hidK, hidReal, ← EReal.coe_mul, ereal_coe_sum, ← EReal.coe_add]
  rw [← EReal.coe_zero, ereal_coe_max]

/-- At real entries a logit is a real number. -/
theorem logit_coe (flr : Fin 1600 → Fin 512 → ℝ) (frr : Fin 64 → Fin 512 → ℝ) (W1r : Fin 1024 → Fin 512 → ℝ)
    (b1r : Fin 512 → ℝ) (W2r : Fin 512 → Fin 2 → ℝ) (b2r : Fin 2 → ℝ) (l : Fin 1600) (r : Fin 64) (c : Fin 2) :
    logit (fun l f => (flr l f : EReal)) (fun r f => (frr r f : EReal)) (fun k h => (W1r k h : EReal))
        (fun h => (b1r h : EReal)) (fun h c => (W2r h c : EReal)) (fun c => (b2r c : EReal)) l r c
      = (((∑ h : Fin 512, hidReal flr frr W1r b1r l r h * W2r h c) + b2r c : ℝ) : EReal) := by
  simp only [logit, ← hidK_eq_hidR, hidK_coe, ← EReal.coe_mul, ereal_coe_sum, ← EReal.coe_add]

/-- The two spellings of the score agree at real entries. -/
theorem scoreK_eq_scoreR_coe (flr : Fin 1600 → Fin 512 → ℝ) (frr : Fin 64 → Fin 512 → ℝ)
    (W1r : Fin 1024 → Fin 512 → ℝ) (b1r : Fin 512 → ℝ) (W2r : Fin 512 → Fin 2 → ℝ) (b2r : Fin 2 → ℝ)
    (l : Fin 1600) (r : Fin 64) :
    scoreK (fun l f => (flr l f : EReal)) (fun r f => (frr r f : EReal)) (fun k h => (W1r k h : EReal))
        (fun h => (b1r h : EReal)) (fun h c => (W2r h c : EReal)) (fun c => (b2r c : EReal)) l r
      = scoreR (fun l f => (flr l f : EReal)) (fun r f => (frr r f : EReal)) (fun k h => (W1r k h : EReal))
        (fun h => (b1r h : EReal)) (fun h c => (W2r h c : EReal)) (fun c => (b2r c : EReal)) l r := by
  simp only [scoreK, scoreR, logit_coe, hidK_coe, ← EReal.coe_sub, ← EReal.coe_mul, ereal_coe_sum, ← EReal.coe_add,
    ereal_coe_max]
  rw [div_logistic_coe, div_softmax_coe, softmax_two_eq_logistic, logit_diff]

/-- The two spellings of the score agree when every entry is a real number. -/
theorem scoreK_eq_scoreR (fl : Fin 1600 → Fin 512 → EReal) (fr : Fin 64 → Fin 512 → EReal)
    (W1 : Fin 1024 → Fin 512 → EReal) (b1 : Fin 512 → EReal) (W2 : Fin 512 → Fin 2 → EReal) (b2 : Fin 2 → EReal)
    (hfl : ∀ l f, ∃ x : ℝ, fl l f = (x : EReal)) (hfr : ∀ r f, ∃ x : ℝ, fr r f = (x : EReal))
    (hW1 : ∀ k h, ∃ x : ℝ, W1 k h = (x : EReal)) (hb1 : ∀ h, ∃ x : ℝ, b1 h = (x : EReal))
    (hW2 : ∀ h c, ∃ x : ℝ, W2 h c = (x : EReal)) (hb2 : ∀ c, ∃ x : ℝ, b2 c = (x : EReal))
    (l : Fin 1600) (r : Fin 64) : scoreK fl fr W1 b1 W2 b2 l r = scoreR fl fr W1 b1 W2 b2 l r := by
  choose flr hflr using hfl
  choose frr hfrr using hfr
  choose W1r hW1r using hW1
  choose b1r hb1r using hb1
  choose W2r hW2r using hW2
  choose b2r hb2r using hb2
  obtain rfl : fl = fun l f => (flr l f : EReal) := by funext l f; exact hflr l f
  obtain rfl : fr = fun r f => (frr r f : EReal) := by funext r f; exact hfrr r f
  obtain rfl : W1 = fun k h => (W1r k h : EReal) := by funext k h; exact hW1r k h
  obtain rfl : b1 = fun h => (b1r h : EReal) := by funext h; exact hb1r h
  obtain rfl : W2 = fun h c => (W2r h c : EReal) := by funext h c; exact hW2r h c
  obtain rfl : b2 = fun c => (b2r c : EReal) := by funext c; exact hb2r c
  exact scoreK_eq_scoreR_coe flr frr W1r b1r W2r b2r l r

end Cert.PairScore

end
-- ==== Proof.RefScore.lean ====
/-
  The reference computation, read entry by entry.

  The reference forms, for every left sample `l` and right sample `r`, the row of 1024 features that is the gathered
  left row followed by the gathered right row, multiplies it into the first weight matrix, adds the bias and keeps the
  positive part; multiplies the 512 hidden values into the second weight matrix and adds its bias to get two logits;
  and takes the softmax of the two logits (largest logit subtracted first), keeping the probability of the second one.
  Each lemma below reads one of these layers at explicit coordinates; the last one says that entry `(l, r)` of the
  result is the specification's `scoreR` at `(l, r)`, the gathered rows standing for the two feature tables.
-/
import proofs.«114574_j23450521436163_2_alg».proof.Proof.Gen.ReferenceIdeal.Read
import proofs.«114574_j23450521436163_2_alg».proof.Proof.PairScore
import Idealize.ShloMosaic.PureOps.Reduce
import Idealize.ShloMosaic.PureOps.Ideal.Laws
import Idealize.ShloMosaic.Lib.Pipeline.Value
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read Cert.PairScore

/-- The bit pattern of negative infinity is the bottom element of the extended reals. -/
theorem ofBits_negInf_f32 : Ideal.ofBits .f32 0xFF800000#32 = (⊥ : EReal) := by
  simp [Ideal.ofBits, Ideal.ieee]

variable (x0 : (⟨S200000x512, .f32⟩ : BufTy).Contents (Elt Ideal)) (x1 : (⟨S100000x512, .f32⟩ : BufTy).Contents (Elt Ideal))
  (x2 : (⟨S1024x512, .f32⟩ : BufTy).Contents (Elt Ideal)) (x3 : (⟨S512, .f32⟩ : BufTy).Contents (Elt Ideal))
  (x4 : (⟨S512x2, .f32⟩ : BufTy).Contents (Elt Ideal)) (x5 : (⟨S2, .f32⟩ : BufTy).Contents (Elt Ideal))
  (x6 : (⟨S1600, .i32⟩ : BufTy).Contents (Elt Ideal)) (x7 : (⟨S64, .i32⟩ : BufTy).Contents (Elt Ideal))

/-! ### The concatenated feature row -/

/-- The left rows repeated along the right samples: entry `(l, r, f)` is entry `(l, f)` of the gathered left rows. -/
theorem left_rows_at (l : Fin 1600) (r : Fin 64) (f : Fin 512) :
    val_main_v15 (F := Ideal) x0 x6 (ix3 l r f) = val_main_v6 (F := Ideal) x0 x6 (ix2 l f) := by
  rw [val_main_v15_apply, val_main_v14_apply]
  exact congrArg _ (funext fun a => Fin.ext (by match a with | ⟨0, _⟩ => rfl | ⟨1, _⟩ => rfl))

/-- The right rows repeated along the left samples: entry `(l, r, f)` is entry `(r, f)` of the gathered right rows. -/
theorem right_rows_at (l : Fin 1600) (r : Fin 64) (f : Fin 512) :
    val_main_v17 (F := Ideal) x1 x7 (ix3 l r f) = val_main_v13 (F := Ideal) x1 x7 (ix2 r f) := by
  rw [val_main_v17_apply, val_main_v16_apply]
  exact congrArg _ (funext fun a => Fin.ext (by match a with | ⟨0, _⟩ => rfl | ⟨1, _⟩ => rfl))

/-- Feature `k` of the joined row of the pair `(l, r)`: the left row below 512, the right row, 512 less, from 512 on. -/
theorem cat_at (l : Fin 1600) (r : Fin 64) (k : Fin 1024) :
    val_main_v18 (F := Ideal) x0 x1 x6 x7 (ix3 l r k)
      = cat (rows2 (val_main_v6 (F := Ideal) x0 x6)) (rows2 (val_main_v13 (F := Ideal) x1 x7)) l r k := by
  unfold val_main_v18 cat
  by_cases hk : k.val < 512
  · rw [dif_pos hk]
    refine (concatenate_pair_apply_left 2 (val_main_v15 (F := Ideal) x0 x6) (val_main_v17 (F := Ideal) x1 x7) _
      (ix3 l r k) rfl (ix3 l r ⟨k.val, hk⟩) (fun b => by
        match b with
        | ⟨0, _⟩ => rfl
        | ⟨1, _⟩ => rfl
        | ⟨2, _⟩ => rfl)).trans ?_
    exact left_rows_at x0 x6 l r ⟨k.val, hk⟩
  · rw [dif_neg hk]
    refine (concatenate_pair_apply_right 2 (val_main_v15 (F := Ideal) x0 x6) (val_main_v17 (F := Ideal) x1 x7) _
      (ix3 l r k) rfl rfl (ix3 l r ⟨k.val - 512, by omega⟩) (fun b hb => by
        match b with
        | ⟨0, _⟩ => rfl
        | ⟨1, _⟩ => rfl
        | ⟨2, _⟩ => exact absurd rfl hb) (by show k.val - 512 + 512 = k.val; omega)).trans ?_
    exact right_rows_at x1 x7 l r ⟨k.val - 512, by omega⟩

/-! ### The hidden layer -/

/-- Hidden unit `h` of the pair `(l, r)`: the joined row against column `h` of the first weights, plus the bias,
    positive part. -/
theorem hidden_at (l : Fin 1600) (r : Fin 64) (h : Fin 512) :
    val_main_v23 (F := Ideal) x0 x1 x2 x3 x6 x7 (ix3 l r h)
      = hidR (rows2 (val_main_v6 (F := Ideal) x0 x6)) (rows2 (val_main_v13 (F := Ideal) x1 x7)) (rows2 x2) (row1 x3) l r h := by
  have el : ∀ k : Fin 1024, lidx_main_v19 (ix3 l r h) k = ix3 l r k := fun k =>
    funext fun a => Fin.ext (by match a with | ⟨0, _⟩ => rfl | ⟨1, _⟩ => rfl | ⟨2, _⟩ => rfl)
  have er : ∀ k : Fin 1024, ridx_main_v19 (ix3 l r h) k = ix2 k h := fun k =>
    funext fun a => Fin.ext (by match a with | ⟨0, _⟩ => rfl | ⟨1, _⟩ => rfl)
  have eb : idx_main_v20 (idx_main_v21 (ix3 l r h)) = ix1 h :=
    funext fun a => Fin.ext (by match a with | ⟨0, _⟩ => rfl)
  rw [val_main_v23_apply, val_main_v22_apply, val_main_v19_apply, val_main_v21_apply, val_main_v20_apply,
    val_main_call0_v0_apply, val_main_call0_cst_apply]
  simp only [Ideal.maximumf_def, Ideal.addf_def, Ideal.ofBits_def, Ideal.ofBits_zero_f32, el, er, eb, cat_at]
  rfl

/-! ### The two logits -/

/-- Logit `c` of the pair `(l, r)`: the hidden row against column `c` of the second weights, plus the bias. -/
theorem logit_at (l : Fin 1600) (r : Fin 64) (c : Fin 2) :
    val_main_v27 (F := Ideal) x0 x1 x2 x3 x4 x5 x6 x7 (ix3 l r c)
      = logit (rows2 (val_main_v6 (F := Ideal) x0 x6)) (rows2 (val_main_v13 (F := Ideal) x1 x7)) (rows2 x2) (row1 x3)
          (rows2 x4) (row1 x5) l r c := by
  have el : ∀ k : Fin 512, lidx_main_v24 (ix3 l r c) k = ix3 l r k := fun k =>
    funext fun a => Fin.ext (by match a with | ⟨0, _⟩ => rfl | ⟨1, _⟩ => rfl | ⟨2, _⟩ => rfl)
  have er : ∀ k : Fin 512, ridx_main_v24 (ix3 l r c) k = ix2 k c := fun k =>
    funext fun a => Fin.ext (by match a with | ⟨0, _⟩ => rfl | ⟨1, _⟩ => rfl)
  have eb : idx_main_v25 (idx_main_v26 (ix3 l r c)) = ix1 c :=
    funext fun a => Fin.ext (by match a with | ⟨0, _⟩ => rfl)
  rw [val_main_v27_apply, val_main_v24_apply, val_main_v26_apply, val_main_v25_apply]
  simp only [Ideal.addf_def, el, er, eb, hidden_at]
  rfl

/-! ### The larger logit -/

/-- A fold of a commutative, associative operation over a two-element range combines the two entries with the
    initial value. -/
theorem fold_fin_two {α : Type} (op : α → α → α) [Std.Commutative op] [Std.Associative op] (b : α) (g : Fin 2 → α) :
    (Finset.univ : Finset (Fin 2)).fold op b g = op (g 0) (op (g 1) b) := by
  rw [show (Finset.univ : Finset (Fin 2)) = {0, 1} from by decide, Finset.fold_insert (by decide), Finset.fold_singleton]

/-- The maximum along the last axis (two entries) of a `1600 × 64 × 2` array, started from an initial value, at `(l, r)`. -/
theorem reduce_max_at (x : (⟨S1600x64x2, .f32⟩ : BufTy).Contents (Elt Ideal)) (v : (⟨S_, .f32⟩ : BufTy).Contents (Elt Ideal))
    (h' : S1600x64x2.ReducesTo [2] S1600x64) (hu : 0 < S_.numel) (l : Fin 1600) (r : Fin 64) :
    Host.reduce (FloatOps.maximumf (F := Ideal) (φ := .f32)) x v h' hu (ix2 l r)
      = max (x (ix3 l r 0)) (max (x (ix3 l r 1)) (v (Shape.Idx.first hu))) := by
  have hR : Shape.Reduces S1600x64x2 [2] S1600x64 := by decide
  refine (Host.reduce_eq_fold_single (FloatOps.maximumf (F := Ideal) (φ := .f32)) x v h' hR hu (ix2 l r)).trans ?_
  refine (fold_fin_two (FloatOps.maximumf (F := Ideal) (φ := .f32)) (v (Shape.Idx.first hu)) (x ∘ hR.lift (ix2 l r))).trans ?_
  have e0 : hR.lift (ix2 l r) (0 : Fin 2) = ix3 l r 0 :=
    funext fun a => Fin.ext (by match a with | ⟨0, _⟩ => rfl | ⟨1, _⟩ => rfl | ⟨2, _⟩ => rfl)
  have e1 : hR.lift (ix2 l r) (1 : Fin 2) = ix3 l r 1 :=
    funext fun a => Fin.ext (by match a with | ⟨0, _⟩ => rfl | ⟨1, _⟩ => rfl | ⟨2, _⟩ => rfl)
  show max (x (hR.lift (ix2 l r) (0 : Fin 2))) (max (x (hR.lift (ix2 l r) (1 : Fin 2))) (v (Shape.Idx.first hu))) = _
  rw [e0, e1]

/-- The larger of the two logits of the pair `(l, r)` (the reduction starts from negative infinity, which is neutral). -/
theorem max_at (l : Fin 1600) (r : Fin 64) :
    val_main_v30 (F := Ideal) x0 x1 x2 x3 x4 x5 x6 x7 (ix2 l r)
      = max (logit (rows2 (val_main_v6 (F := Ideal) x0 x6)) (rows2 (val_main_v13 (F := Ideal) x1 x7)) (rows2 x2) (row1 x3)
              (rows2 x4) (row1 x5) l r 0)
            (logit (rows2 (val_main_v6 (F := Ideal) x0 x6)) (rows2 (val_main_v13 (F := Ideal) x1 x7)) (rows2 x2) (row1 x3)
              (rows2 x4) (row1 x5) l r 1) := by
  rw [val_main_v30_apply, val_main_v29_apply, val_main_cst_3_apply]
  unfold val_main_v28
  rw [reduce_max_at, val_main_cst_apply]
  simp only [Ideal.maximumf_def, Ideal.ofBits_def, ofBits_negInf_f32, logit_at, max_bot_left, max_bot_right]

/-! ### The softmax of the two logits -/

/-- The specification's logit `c` of the pair `(l, r)` at the reference's operands: the gathered rows as the two
    feature tables, the four parameter arrays read by row and column. -/
abbrev lg (l : Fin 1600) (r : Fin 64) (c : Fin 2) : EReal :=
  logit (rows2 (val_main_v6 (F := Ideal) x0 x6)) (rows2 (val_main_v13 (F := Ideal) x1 x7)) (rows2 x2) (row1 x3)
    (rows2 x4) (row1 x5) l r c

/-- The exponential of logit `c` less the larger logit. -/
theorem exp_at (l : Fin 1600) (r : Fin 64) (c : Fin 2) :
    val_main_v34 (F := Ideal) x0 x1 x2 x3 x4 x5 x6 x7 (ix3 l r c)
      = Ideal.exp (lg x0 x1 x2 x3 x4 x5 x6 x7 l r c
          - max (lg x0 x1 x2 x3 x4 x5 x6 x7 l r 0) (lg x0 x1 x2 x3 x4 x5 x6 x7 l r 1)) := by
  have e : idx_main_v31 (idx_main_v32 (ix3 l r c)) = ix2 l r :=
    funext fun a => Fin.ext (by match a with | ⟨0, _⟩ => rfl | ⟨1, _⟩ => rfl)
  rw [val_main_v34_apply, val_main_v33_apply, val_main_v32_apply, val_main_v31_apply]
  simp only [Ideal.hostUnary_exp_def, Ideal.subf_def, e, logit_at, max_at]

/-- The softmax denominator: the two exponentials added (the sum starts from zero). -/
theorem sum_at (l : Fin 1600) (r : Fin 64) :
    val_main_v35 (F := Ideal) x0 x1 x2 x3 x4 x5 x6 x7 (ix2 l r)
      = Ideal.exp (lg x0 x1 x2 x3 x4 x5 x6 x7 l r 0
            - max (lg x0 x1 x2 x3 x4 x5 x6 x7 l r 0) (lg x0 x1 x2 x3 x4 x5 x6 x7 l r 1))
        + Ideal.exp (lg x0 x1 x2 x3 x4 x5 x6 x7 l r 1
            - max (lg x0 x1 x2 x3 x4 x5 x6 x7 l r 0) (lg x0 x1 x2 x3 x4 x5 x6 x7 l r 1)) := by
  have e0 : idx_main_v35 (ix2 l r) (0 : Fin 2) = ix3 l r 0 :=
    funext fun a => Fin.ext (by match a with | ⟨0, _⟩ => rfl | ⟨1, _⟩ => rfl | ⟨2, _⟩ => rfl)
  have e1 : idx_main_v35 (ix2 l r) (1 : Fin 2) = ix3 l r 1 :=
    funext fun a => Fin.ext (by match a with | ⟨0, _⟩ => rfl | ⟨1, _⟩ => rfl | ⟨2, _⟩ => rfl)
  rw [val_main_v35_apply, val_main_cst_4_apply]
  simp only [Ideal.ofBits_def, Ideal.ofBits_zero_f32, zero_add, Fin.sum_univ_two, e0, e1, exp_at]

/-- Entry `(l, r)` of the result: the second exponential over the denominator, which is the specification's softmax
    probability of the second logit. The slice keeps position 1 of the last axis and the reshape drops that axis. -/
theorem score_at (l : Fin 1600) (r : Fin 64) :
    val_main_v40 (F := Ideal) x0 x1 x2 x3 x4 x5 x6 x7 (ix2 l r)
      = scoreR (rows2 (val_main_v6 (F := Ideal) x0 x6)) (rows2 (val_main_v13 (F := Ideal) x1 x7)) (rows2 x2) (row1 x3)
          (rows2 x4) (row1 x5) l r := by
  have e1 : idx_main_v39 (idx_main_v40 (ix2 l r)) = ix3 l r 1 :=
    funext fun a => Fin.ext (by
      match a with
      | ⟨0, _⟩ => show (l.val * 64 + r.val) / 64 = l.val; omega
      | ⟨1, _⟩ => show (l.val * 64 + r.val) / 1 % 64 = r.val; omega
      | ⟨2, _⟩ => rfl)
  have e2 : idx_main_v36 (idx_main_v37 (ix3 l r (1 : Fin 2))) = ix2 l r :=
    funext fun a => Fin.ext (by match a with | ⟨0, _⟩ => rfl | ⟨1, _⟩ => rfl)
  rw [val_main_v40_apply, val_main_v39_apply, val_main_v38_apply, val_main_v37_apply, val_main_v36_apply]
  simp only [Ideal.hostDivf_def, e1, e2, exp_at, sum_at]
  rfl

/-! ### The whole result -/

/-- The reference's result is the table of the specification's scores, the gathered left and right rows standing
    for the two feature tables. -/
theorem ref_score :
    val_main_v40 (F := Ideal) x0 x1 x2 x3 x4 x5 x6 x7
      = scoreArr (scoreR (rows2 (val_main_v6 (F := Ideal) x0 x6)) (rows2 (val_main_v13 (F := Ideal) x1 x7)) (rows2 x2)
          (row1 x3) (rows2 x4) (row1 x5)) := by
  funext i
  obtain ⟨l, r, rfl⟩ : ∃ (l : Fin 1600) (r : Fin 64), i = ix2 l r := ⟨i 0, i 1, eq_ix2 i⟩
  exact score_at x0 x1 x2 x3 x4 x5 x6 x7 l r

end Cert.ReferenceIdeal.RefValue

end
-- ==== Proof.Bridge.lean ====
/-
  The kernel's score table and the reference's result are the same array, when every float argument is finite.

  The kernel's table is the match score written the kernel's way: the hidden layer's sum split into its left and
  right halves, and the softmax of two logits written as the logistic function of their difference. The reference
  computes the score literally: one sum over the concatenated features, and the softmax with the larger logit
  subtracted. Three facts join them.
  * Both programs sample their left rows and their right rows by the same chain of operations on the same arguments
    (a negative sample index counted from the end, then a gather), so the sampled rows are the same arrays.
  * The two spellings of the score agree whenever every feature, weight and bias is a real number.
  * Under the precondition every entry of the six float arguments is a real number; a sampled row's entries are
    entries of the table it was sampled from, hence real numbers too.
-/
import proofs.«114574_j23450521436163_2_alg».proof.Proof.FiniteArgs
import proofs.«114574_j23450521436163_2_alg».proof.Proof.PairLaw
import proofs.«114574_j23450521436163_2_alg».proof.Proof.RefScore
import proofs.«114574_j23450521436163_2_alg».proof.Proof.KSpec

noncomputable section

namespace Cert.Proof.Bridge

open Idealize.ShloMosaic Idealize.ShloMosaic.ValueIdx Idealize.SL.Sem
open Cert.PairScore Cert.KernelIdeal.PairHost

/-- The sampled left rows of the kernel program are the sampled left rows of the reference: the two are the same
    operations, in the same order, on the same two arguments. -/
theorem rowsL_eq (x0 : FVec Ideal Cert.KernelIdeal.S200000x512 .f32) (x6 : IVec Cert.KernelIdeal.S1600 32) :
    rowsL x0 x6 = Cert.ReferenceIdeal.Read.val_main_v6 (F := Ideal) x0 x6 := rfl

/-- The sampled right rows of the kernel program are the sampled right rows of the reference. -/
theorem rowsR_eq (x1 : FVec Ideal Cert.KernelIdeal.S100000x512 .f32) (x7 : IVec Cert.KernelIdeal.S64 32) :
    rowsR x1 x7 = Cert.ReferenceIdeal.Read.val_main_v13 (F := Ideal) x1 x7 := rfl

/-- For any eight arguments whose six float arrays hold only real numbers: the score table written the kernel's way,
    of the sampled rows and the weights and biases, is the reference's result.
    The reference's result is the literal score of its own sampled rows; those are the kernel's sampled rows; and the
    two spellings of the score agree at every pair `(l, r)` because all their inputs are real numbers — the weights
    and biases by hypothesis, and entry `(l, f)` of the sampled left rows because it is some entry `j` of the left
    table (likewise on the right). -/
theorem scoreK_eq_ref (x0 : FVec Ideal Cert.KernelIdeal.S200000x512 .f32) (x1 : FVec Ideal Cert.KernelIdeal.S100000x512 .f32)
    (x2 : FVec Ideal Cert.KernelIdeal.S1024x512 .f32) (x3 : FVec Ideal Cert.KernelIdeal.S512 .f32)
    (x4 : FVec Ideal Cert.KernelIdeal.S512x2 .f32) (x5 : FVec Ideal Cert.KernelIdeal.S2 .f32)
    (x6 : IVec Cert.KernelIdeal.S1600 32) (x7 : IVec Cert.KernelIdeal.S64 32)
    (h0 : ∀ i, ∃ x : ℝ, x0 i = (x : EReal)) (h1 : ∀ i, ∃ x : ℝ, x1 i = (x : EReal))
    (h2 : ∀ i, ∃ x : ℝ, x2 i = (x : EReal)) (h3 : ∀ i, ∃ x : ℝ, x3 i = (x : EReal))
    (h4 : ∀ i, ∃ x : ℝ, x4 i = (x : EReal)) (h5 : ∀ i, ∃ x : ℝ, x5 i = (x : EReal)) :
    scoreArr (scoreK (rows2 (rowsL x0 x6)) (rows2 (rowsR x1 x7)) (rows2 x2) (row1 x3) (rows2 x4) (row1 x5))
      = Cert.ReferenceIdeal.Read.val_main_v40 (F := Ideal) x0 x1 x2 x3 x4 x5 x6 x7 := by
  -- the reference's result is the literal score of the reference's sampled rows …
  refine Eq.trans ?_ (Cert.ReferenceIdeal.RefValue.ref_score x0 x1 x2 x3 x4 x5 x6 x7).symm
  -- … which are the kernel's sampled rows
  rw [← rowsL_eq x0 x6, ← rowsR_eq x1 x7]
  -- two tables are equal when they agree at every pair
  refine congrArg scoreArr ?_
  funext l r
  -- an entry of the sampled left rows is an entry `j` of the left table, a real number
  have hfl : ∀ l f, ∃ x : ℝ, rows2 (rowsL x0 x6) l f = (x : EReal) := fun l f => by
    obtain ⟨j, hj⟩ := Cert.KernelIdeal.Finite.gather_l_entry x0 (startL x6) (ix2 l f)
    obtain ⟨x, hx⟩ := h0 j
    exact ⟨x, hj.trans hx⟩
  -- and the same on the right
  have hfr : ∀ r f, ∃ x : ℝ, rows2 (rowsR x1 x7) r f = (x : EReal) := fun r f => by
    obtain ⟨j, hj⟩ := Cert.KernelIdeal.Finite.gather_r_entry x1 (startR x7) (ix2 r f)
    obtain ⟨x, hx⟩ := h1 j
    exact ⟨x, hj.trans hx⟩
  exact scoreK_eq_scoreR _ _ _ _ _ _ hfl hfr (fun k h => h2 (ix2 k h)) (fun h => h3 (ix1 h))
    (fun h c => h4 (ix2 h c)) (fun c => h5 (ix1 c)) l r

/-- On every device, under the kernel's precondition, the table of match scores the kernel leaves — written the
    kernel's way, of the arrays the program was launched on — is the reference's result on the same arrays: the
    precondition makes every entry of the six float arguments a real number, which is all the lemma above asks. -/
theorem score_bridge [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.PairScore.scoreArr (Cert.KernelIdeal.PairValue.scoreOf m c)
      = Cert.ReferenceIdeal.Read.val_main_v40 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  obtain ⟨h0, h1, h2, h3, h4, h5⟩ := Cert.KernelIdeal.Finite.args_real m hpre c
  exact scoreK_eq_ref _ _ _ _ _ _ _ _ h0 h1 h2 h3 h4 h5

end Cert.Proof.Bridge

end
-- ==== Proof.lean ====
/-
  The certificate of the pair-score kernel against its reference.

  Both programs take sampled left feature rows (1600 of 200000) and right feature rows (64 of 100000), by the same
  gathers, and score every pair (l, r) with a two-layer perceptron on the concatenated row: a hidden layer of 512 units
  with the positive part as activation, two logits, and the softmax probability of the second logit.

  The reference does exactly that. The kernel splits the first layer's product over the 1024 concatenated features into
  the left 512 (computed per tile of 80 left rows inside the kernel) plus the right 512 (computed once by a host product
  in front of it), and replaces the softmax of two logits by the logistic function of their difference, which it gets
  from the difference of the second layer's two weight columns and of its two biases. On the extended reals the split
  of the sum always holds; the logistic form needs distributivity, so it holds where every entry is a real number —
  which the precondition (every float input finite) gives, the gathered rows being rows of finite arrays.

  The three frames are the generated ones (for the reference: its generated run with the result dropped). The kernel's
  idealization rewrote nothing, so there is nothing to preserve. For the value: the kernel's run leaves the score table
  in its own arrangement (`PairValue.scoreOf`: the body at a pair, the tiles covering the output, the host reshape
  behind the region); the reference's run leaves its last stage, which is the same table in the reference's
  arrangement; the two arrangements agree on finite inputs (`Bridge.score_bridge`).
-/
import proofs.«114574_j23450521436163_2_alg».proof.Defs
import proofs.«114574_j23450521436163_2_alg».proof.Proof.Gen.Kernel
import proofs.«114574_j23450521436163_2_alg».proof.Proof.Gen.Kernel.Skeleton
import proofs.«114574_j23450521436163_2_alg».proof.Proof.Gen.Kernel.Launch
import proofs.«114574_j23450521436163_2_alg».proof.Proof.Gen.Kernel.Points
import proofs.«114574_j23450521436163_2_alg».proof.Proof.Gen.Kernel.Frame
import proofs.«114574_j23450521436163_2_alg».proof.Proof.Gen.KernelIdeal
import proofs.«114574_j23450521436163_2_alg».proof.Proof.Gen.KernelIdeal.Skeleton
import proofs.«114574_j23450521436163_2_alg».proof.Proof.Gen.KernelIdeal.Launch
import proofs.«114574_j23450521436163_2_alg».proof.Proof.Gen.KernelIdeal.Points
import proofs.«114574_j23450521436163_2_alg».proof.Proof.Gen.KernelIdeal.Frame
import proofs.«114574_j23450521436163_2_alg».proof.Proof.Gen.ReferenceIdeal
import proofs.«114574_j23450521436163_2_alg».proof.Proof.Gen.Pre_finite_inputs
import proofs.«114574_j23450521436163_2_alg».proof.Proof.Gen.ReferenceIdeal.Run
import proofs.«114574_j23450521436163_2_alg».proof.Proof.Gen.ReferenceIdeal.Read
import proofs.«114574_j23450521436163_2_alg».proof.Proof.KBlocks
import proofs.«114574_j23450521436163_2_alg».proof.Proof.KRun
import proofs.«114574_j23450521436163_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the same score table: the kernel's run
    leaves `scoreOf` of its arguments, the reference's run leaves its last stage of the same arguments, and under the
    precondition the two are one table. -/
theorem algebraic : Cert.algebraic_KernelIdeal_ReferenceIdeal := by
  intro m ρ m' ρ' hpre hagree
  refine ⟨fun c => Cert.PairScore.scoreArr (Cert.KernelIdeal.PairValue.scoreOf m c),
    Cert.KernelIdeal.PairRun.run_of_final m ρ (Cert.KernelIdeal.PairBlocks.final m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq]
  obtain ⟨a0, a1, a2, a3, a4, a5, a6, a7⟩ := hagree c
  rw [a0, a1, a2, a3, a4, a5, a6, a7]
  exact (Cert.Proof.Bridge.score_bridge m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
